-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x65x100 : Shape := ⟨3, ![8192, 65, 100]⟩
abbrev S8192x20x100 : Shape := ⟨3, ![8192, 20, 100]⟩
abbrev S65x100 : Shape := ⟨2, ![65, 100]⟩
abbrev S20x100 : Shape := ⟨2, ![20, 100]⟩
abbrev S_ : Shape := ⟨0, ![]⟩

class Facts : Prop where
  bcast_S_S8192x65x100 : S_.BroadcastsInDim S8192x65x100 (![] : Fin 0 → Fin S8192x65x100.rank)
  reducesTo_S8192x65x100_S_d0_1_2 : S8192x65x100.ReducesTo [0, 1, 2] S_
  h_S_ : 0 < S_.numel
  bcast_S_S8192x20x100 : S_.BroadcastsInDim S8192x20x100 (![] : Fin 0 → Fin S8192x20x100.rank)
  reducesTo_S8192x20x100_S_d0_1_2 : S8192x20x100.ReducesTo [0, 1, 2] S_
  bcast_S_S65x100 : S_.BroadcastsInDim S65x100 (![] : Fin 0 → Fin S65x100.rank)
  reducesTo_S65x100_S_d0_1 : S65x100.ReducesTo [0, 1] S_
  bcast_S_S20x100 : S_.BroadcastsInDim S20x100 (![] : Fin 0 → Fin S20x100.rank)
  reducesTo_S20x100_S_d0_1 : S20x100.ReducesTo [0, 1] S_

variable [Facts]

def fn_part1 {F : FTy → Type} [FloatOps F] (main_arg4 : FVec F S65x100 .f32) (main_v13 : IVec S_ 1) (main_v16 : IVec S20x100 1) : IVec S_ 1 :=
  let main_c_5 : IVec S_ 1 := constantI S_ 1 1#1
  let main_v17 : IVec S_ 1 := (fun x v => Host.reduce IntOp.andi x v reducesTo_S20x100_S_d0_1 h_S_) main_v16 main_c_5
  let main_v18 : IVec S_ 1 := andi main_v13 main_v17
  let main_v19 : FVec F S65x100 .f32 := Host.absf main_arg4
  let main_cst_6 : FVec F S_ .f32 := constant S_ .f32 0x7F800000#32
  let main_v20 : FVec F S65x100 .f32 := broadcastInDim S65x100 ![] bcast_S_S65x100 main_cst_6
  let main_v21 : IVec S65x100 1 := cmpf .olt main_v19 main_v20
  let main_c_7 : IVec S_ 1 := constantI S_ 1 1#1
  let main_v22 : IVec S_ 1 := (fun x v => Host.reduce IntOp.andi x v reducesTo_S65x100_S_d0_1 h_S_) main_v21 main_c_7
  let main_v23 : IVec S_ 1 := andi main_v18 main_v22
  main_v23

def fn {F : FTy → Type} [FloatOps F] (main_arg0 : FVec F S8192x65x100 .f32) (main_arg1 : FVec F S8192x20x100 .f32) (main_arg2 : FVec F S65x100 .f32) (main_arg3 : FVec F S20x100 .f32) (main_arg4 : FVec F S65x100 .f32) : IVec S_ 1 :=
  let main_v0 : FVec F S8192x65x100 .f32 := Host.absf main_arg0
  let main_cst : FVec F S_ .f32 := constant S_ .f32 0x7F800000#32
  let main_v1 : FVec F S8192x65x100 .f32 := broadcastInDim S8192x65x100 ![] bcast_S_S8192x65x100 main_cst
  let main_v2 : IVec S8192x65x100 1 := cmpf .olt main_v0 main_v1
  let main_c : IVec S_ 1 := constantI S_ 1 1#1
  let main_v3 : IVec S_ 1 := (fun x v => Host.reduce IntOp.andi x v reducesTo_S8192x65x100_S_d0_1_2 h_S_) main_v2 main_c
  let main_v4 : FVec F S8192x20x100 .f32 := Host.absf main_arg1
  let main_cst_0 : FVec F S_ .f32 := constant S_ .f32 0x7F800000#32
  let main_v5 : FVec F S8192x20x100 .f32 := broadcastInDim S8192x20x100 ![] bcast_S_S8192x20x100 main_cst_0
  let main_v6 : IVec S8192x20x100 1 := cmpf .olt main_v4 main_v5
  let main_c_1 : IVec S_ 1 := constantI S_ 1 1#1
  let main_v7 : IVec S_ 1 := (fun x v => Host.reduce IntOp.andi x v reducesTo_S8192x20x100_S_d0_1_2 h_S_) main_v6 main_c_1
  let main_v8 : IVec S_ 1 := andi main_v3 main_v7
  let main_v9 : FVec F S65x100 .f32 := Host.absf main_arg2
  let main_cst_2 : FVec F S_ .f32 := constant S_ .f32 0x7F800000#32
  let main_v10 : FVec F S65x100 .f32 := broadcastInDim S65x100 ![] bcast_S_S65x100 main_cst_2
  let main_v11 : IVec S65x100 1 := cmpf .olt main_v9 main_v10
  let main_c_3 : IVec S_ 1 := constantI S_ 1 1#1
  let main_v12 : IVec S_ 1 := (fun x v => Host.reduce IntOp.andi x v reducesTo_S65x100_S_d0_1 h_S_) main_v11 main_c_3
  let main_v13 : IVec S_ 1 := andi main_v8 main_v12
  let main_v14 : FVec F S20x100 .f32 := Host.absf main_arg3
  let main_cst_4 : FVec F S_ .f32 := constant S_ .f32 0x7F800000#32
  let main_v15 : FVec F S20x100 .f32 := broadcastInDim S20x100 ![] bcast_S_S20x100 main_cst_4
  let main_v16 : IVec S20x100 1 := cmpf .olt main_v14 main_v15
  fn_part1 (F := F) main_arg4 main_v13 main_v16
-- ==== Kernel.lean ====
abbrev S8192x65x100 : Shape := ⟨3, ![8192, 65, 100]⟩
abbrev S8192x20x100 : Shape := ⟨3, ![8192, 20, 100]⟩
abbrev S65x100 : Shape := ⟨2, ![65, 100]⟩
abbrev S20x100 : Shape := ⟨2, ![20, 100]⟩
abbrev S8192x65x400 : Shape := ⟨3, ![8192, 65, 400]⟩
abbrev S32x65x100 : Shape := ⟨3, ![32, 65, 100]⟩
abbrev S32x20x100 : Shape := ⟨3, ![32, 20, 100]⟩
abbrev S32x65x400 : Shape := ⟨3, ![32, 65, 400]⟩
abbrev S1x65x100 : Shape := ⟨3, ![1, 65, 100]⟩
abbrev S32x65 : Shape := ⟨2, ![32, 65]⟩
abbrev S32x65x1 : Shape := ⟨3, ![32, 65, 1]⟩
abbrev S1x20x100 : Shape := ⟨3, ![1, 20, 100]⟩
abbrev S32x20 : Shape := ⟨2, ![32, 20]⟩
abbrev S32x20x1 : Shape := ⟨3, ![32, 20, 1]⟩
abbrev S32x1x20 : Shape := ⟨3, ![32, 1, 20]⟩
abbrev S32x65x20 : Shape := ⟨3, ![32, 65, 20]⟩
abbrev S32 : Shape := ⟨1, ![32]⟩
abbrev S32x1 : Shape := ⟨2, ![32, 1]⟩
abbrev S32x100 : Shape := ⟨2, ![32, 100]⟩
abbrev S32x1x100 : Shape := ⟨3, ![32, 1, 100]⟩

abbrev nBuf : Space → Nat
  | .hbm => 6
  | .vmem => 9
  | .smem => 0
  | _ => 0

abbrev bufTy : (tb : Table) → Fin (tcTables nBuf tb) → BufTy
  | .hbm, ⟨0, _⟩ => ⟨S8192x65x100, .f32⟩
  | .hbm, ⟨1, _⟩ => ⟨S8192x20x100, .f32⟩
  | .hbm, ⟨2, _⟩ => ⟨S65x100, .f32⟩
  | .hbm, ⟨3, _⟩ => ⟨S20x100, .f32⟩
  | .hbm, ⟨4, _⟩ => ⟨S65x100, .f32⟩
  | .hbm, ⟨5, _⟩ => ⟨S8192x65x400, .f32⟩
  | .local _ .vmem, ⟨0, _⟩ => ⟨S32x65x100, .f32⟩
  | .local _ .vmem, ⟨1, _⟩ => ⟨S32x65x100, .f32⟩
  | .local _ .vmem, ⟨2, _⟩ => ⟨S32x20x100, .f32⟩
  | .local _ .vmem, ⟨3, _⟩ => ⟨S32x20x100, .f32⟩
  | .local _ .vmem, ⟨4, _⟩ => ⟨S65x100, .f32⟩
  | .local _ .vmem, ⟨5, _⟩ => ⟨S20x100, .f32⟩
  | .local _ .vmem, ⟨6, _⟩ => ⟨S65x100, .f32⟩
  | .local _ .vmem, ⟨7, _⟩ => ⟨S32x65x400, .f32⟩
  | .local _ .vmem, ⟨8, _⟩ => ⟨S32x65x400, .f32⟩
  | _, _ => ⟨S8192x65x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x65x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x20x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x65x400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S32x65x100_S32x65x100_0_0_0 : ∀ a, (![0, 0, 0] : Fin 3 → Nat) a + S32x65x100.size a ≤ S32x65x100.size a
  h_S32x65x100 : 0 < S32x65x100.numel
  inb_S32x20x100_S32x20x100_0_0_0 : ∀ a, (![0, 0, 0] : Fin 3 → Nat) a + S32x20x100.size a ≤ S32x20x100.size a
  h_S32x20x100 : 0 < S32x20x100.numel
  inb_S65x100_S65x100_0_0 : ∀ a, (![0, 0] : Fin 2 → Nat) a + S65x100.size a ≤ S65x100.size a
  h_S65x100 : 0 < S65x100.numel
  inb_S20x100_S20x100_0_0 : ∀ a, (![0, 0] : Fin 2 → Nat) a + S20x100.size a ≤ S20x100.size a
  h_S20x100 : 0 < S20x100.numel
  shapeCasts_S65x100_S1x65x100 : S65x100.ShapeCasts S1x65x100
  broadcasts_S1x65x100_S32x65x100 : S1x65x100.Broadcasts S32x65x100
  reduces_S32x65x100_S32x65 : S32x65x100.Reduces [2] S32x65
  shapeCasts_S32x65_S32x65x1 : S32x65.ShapeCasts S32x65x1
  shapeCasts_S20x100_S1x20x100 : S20x100.ShapeCasts S1x20x100
  broadcasts_S1x20x100_S32x20x100 : S1x20x100.Broadcasts S32x20x100
  reduces_S32x20x100_S32x20 : S32x20x100.Reduces [2] S32x20
  shapeCasts_S32x20_S32x20x1 : S32x20.ShapeCasts S32x20x1
  transposes_S32x20x1_p0_2_1_S32x1x20 : S32x20x1.Transposes [0, 2, 1] S32x1x20
  bitsLt_bf16_f32 : FTy.bits .bf16 < FTy.bits .f32
  broadcasts_S32x65x1_S32x65x20 : S32x65x1.Broadcasts S32x65x20
  broadcasts_S32x1x20_S32x65x20 : S32x1x20.Broadcasts S32x65x20
  reduces_S32x65x20_S32x65 : S32x65x20.Reduces [2] S32x65
  reduces_S32x65_S32 : S32x65.Reduces [1] S32
  shapeCasts_S32_S32x1 : S32.ShapeCasts S32x1
  broadcasts_S32x1_S32x65 : S32x1.Broadcasts S32x65
  broadcasts_S32x65x1_S32x65x100 : S32x65x1.Broadcasts S32x65x100
  reduces_S32x65x100_S32x100 : S32x65x100.Reduces [1] S32x100
  shapeCasts_S32x100_S32x1x100 : S32x100.ShapeCasts S32x1x100
  inb_S32x65x400_S32x65x100_0_0_0 : ∀ a, (![0, 0, 0] : Fin 3 → Nat) a + S32x65x100.size a ≤ S32x65x400.size a
  inb_S32x65x400_S32x65x100_0_0_100 : ∀ a, (![0, 0, 100] : Fin 3 → Nat) a + S32x65x100.size a ≤ S32x65x400.size a
  inb_S32x65x400_S32x65x100_0_0_200 : ∀ a, (![0, 0, 200] : Fin 3 → Nat) a + S32x65x100.size a ≤ S32x65x400.size a
  broadcasts_S32x1x100_S32x65x100 : S32x1x100.Broadcasts S32x65x100
  inb_S32x65x400_S32x65x100_0_0_300 : ∀ a, (![0, 0, 300] : Fin 3 → Nat) a + S32x65x100.size a ≤ S32x65x400.size a
  dot_S32x65x100_S32x20x100_S32x65x20_2_2_1_1_0_0_wf : DotDims.WF S32x65x100 S32x20x100 S32x65x20 [2] [2] [1] [1] [0] [0]
  dot_S32x65x20_S32x20x100_S32x65x100_2_1_1_2_0_0_wf : DotDims.WF S32x65x20 S32x20x100 S32x65x100 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65x100.size a ≤ S8192x65x100.size a
  hwx0_0 : ∀ i : grid0.Coords, EltTy.bits .f32 = 32 ∨ (Rect.block (s := S8192x65x100) S32x65x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x20x100.size a ≤ S8192x20x100.size a
  hwx0_1 : ∀ i : grid0.Coords, EltTy.bits .f32 = 32 ∨ (Rect.block (s := S8192x20x100) S32x20x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x100.size a ≤ S65x100.size a
  hwx0_2 : ∀ i : grid0.Coords, EltTy.bits .f32 = 32 ∨ (Rect.block (s := S65x100) S65x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x100.size a ≤ S20x100.size a
  hwx0_3 : ∀ i : grid0.Coords, EltTy.bits .f32 = 32 ∨ (Rect.block (s := S20x100) S20x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x100.size a ≤ S65x100.size a
  hwx0_4 : ∀ i : grid0.Coords, EltTy.bits .f32 = 32 ∨ (Rect.block (s := S65x100) S65x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x65x400.size a ≤ S8192x65x400.size a
  hwx0_5 : ∀ i : grid0.Coords, EltTy.bits .f32 = 32 ∨ (Rect.block (s := S8192x65x400) S32x65x400.size (cc0_transform_5 i) (hinb0_5 i)).WholeWords (EltTy.packing .f32)

variable [Facts₀]

def dot_S32x65x100_S32x20x100_S32x65x20_2_2_1_1_0_0 : DotDims S32x65x100 S32x20x100 S32x65x20 where
  lhsContracting := [2]
  rhsContracting := [2]
  lhsNonContracting := [1]
  rhsNonContracting := [1]
  lhsBatch := [0]
  rhsBatch := [0]
  wf := dot_S32x65x100_S32x20x100_S32x65x20_2_2_1_1_0_0_wf
def dot_S32x65x20_S32x20x100_S32x65x100_2_1_1_2_0_0 : DotDims S32x65x20 S32x20x100 S32x65x100 where
  lhsContracting := [2]
  rhsContracting := [1]
  lhsNonContracting := [1]
  rhsNonContracting := [2]
  lhsBatch := [0]
  rhsBatch := [0]
  wf := dot_S32x65x20_S32x20x100_S32x65x100_2_1_1_2_0_0_wf

abbrev win0_0 : Pipeline.Window sig grid0 :=
  Pipeline.Window.ofSpec (Memref.whole main_arg0) S32x65x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x20x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S65x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S20x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S65x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S32x65x400.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x65x100 : Shape := ⟨3, ![8192, 65, 100]⟩
abbrev S8192x20x100 : Shape := ⟨3, ![8192, 20, 100]⟩
abbrev S65x100 : Shape := ⟨2, ![65, 100]⟩
abbrev S20x100 : Shape := ⟨2, ![20, 100]⟩
abbrev S1x65x100 : Shape := ⟨3, ![1, 65, 100]⟩
abbrev S_ : Shape := ⟨0, ![]⟩
abbrev S8192x65 : Shape := ⟨2, ![8192, 65]⟩
abbrev S8192x65x1 : Shape := ⟨3, ![8192, 65, 1]⟩
abbrev S1x20x100 : Shape := ⟨3, ![1, 20, 100]⟩
abbrev S8192x20 : Shape := ⟨2, ![8192, 20]⟩
abbrev S8192x1x20 : Shape := ⟨3, ![8192, 1, 20]⟩
abbrev S8192x65x20 : Shape := ⟨3, ![8192, 65, 20]⟩
abbrev S8192 : Shape := ⟨1, ![8192]⟩
abbrev S8192x1 : Shape := ⟨2, ![8192, 1]⟩
abbrev S8192x100 : Shape := ⟨2, ![8192, 100]⟩
abbrev S8192x1x100 : Shape := ⟨3, ![8192, 1, 100]⟩
abbrev S8192x65x400 : Shape := ⟨3, ![8192, 65, 400]⟩

abbrev nBuf : Space → Nat
  | .hbm => 66
  | .vmem => 0
  | .smem => 0
  | _ => 0

abbrev bufTy : (tb : Table) → Fin (tcTables nBuf tb) → BufTy
  | .hbm, ⟨0, _⟩ => ⟨S8192x65x100, .f32⟩
  | .hbm, ⟨1, _⟩ => ⟨S8192x20x100, .f32⟩
  | .hbm, ⟨2, _⟩ => ⟨S65x100, .f32⟩
  | .hbm, ⟨3, _⟩ => ⟨S20x100, .f32⟩
  | .hbm, ⟨4, _⟩ => ⟨S65x100, .f32⟩
  | .hbm, ⟨5, _⟩ => ⟨S1x65x100, .f32⟩
  | .hbm, ⟨6, _⟩ => ⟨S8192x65x100, .f32⟩
  | .hbm, ⟨7, _⟩ => ⟨S8192x65x100, .f32⟩
  | .hbm, ⟨8, _⟩ => ⟨S_, .f32⟩
  | .hbm, ⟨9, _⟩ => ⟨S8192x65, .f32⟩
  | .hbm, ⟨10, _⟩ => ⟨S8192x65x1, .f32⟩
  | .hbm, ⟨11, _⟩ => ⟨S1x20x100, .f32⟩
  | .hbm, ⟨12, _⟩ => ⟨S8192x20x100, .f32⟩
  | .hbm, ⟨13, _⟩ => ⟨S8192x20x100, .f32⟩
  | .hbm, ⟨14, _⟩ => ⟨S_, .f32⟩
  | .hbm, ⟨15, _⟩ => ⟨S8192x20, .f32⟩
  | .hbm, ⟨16, _⟩ => ⟨S8192x1x20, .f32⟩
  | .hbm, ⟨17, _⟩ => ⟨S1x65x100, .f32⟩
  | .hbm, ⟨18, _⟩ => ⟨S8192x65x100, .f32⟩
  | .hbm, ⟨19, _⟩ => ⟨S8192x65x100, .f32⟩
  | .hbm, ⟨20, _⟩ => ⟨S8192x65x20, .f32⟩
  | .hbm, ⟨21, _⟩ => ⟨S8192x65x20, .f32⟩
  | .hbm, ⟨22, _⟩ => ⟨S8192x65x20, .f32⟩
  | .hbm, ⟨23, _⟩ => ⟨S8192x65x20, .f32⟩
  | .hbm, ⟨24, _⟩ => ⟨S8192x65x20, .f32⟩
  | .hbm, ⟨25, _⟩ => ⟨S_, .f32⟩
  | .hbm, ⟨26, _⟩ => ⟨S8192x65, .f32⟩
  | .hbm, ⟨27, _⟩ => ⟨S_, .f32⟩
  | .hbm, ⟨28, _⟩ => ⟨S8192x65, .f32⟩
  | .hbm, ⟨29, _⟩ => ⟨S8192x65, .f32⟩
  | .hbm, ⟨30, _⟩ => ⟨S8192x65x1, .f32⟩
  | .hbm, ⟨31, _⟩ => ⟨S8192x65x20, .f32⟩
  | .hbm, ⟨32, _⟩ => ⟨S8192x65x20, .f32⟩
  | .hbm, ⟨33, _⟩ => ⟨S8192x65x20, .f32⟩
  | .hbm, ⟨34, _⟩ => ⟨S_, .f32⟩
  | .hbm, ⟨35, _⟩ => ⟨S8192x65, .f32⟩
  | .hbm, ⟨36, _⟩ => ⟨S8192x65x1, .f32⟩
  | .hbm, ⟨37, _⟩ => ⟨S8192x65x20, .f32⟩
  | .hbm, ⟨38, _⟩ => ⟨S8192x65x20, .f32⟩
  | .hbm, ⟨39, _⟩ => ⟨S8192x65x100, .f32⟩
  | .hbm, ⟨40, _⟩ => ⟨S_, .f32⟩
  | .hbm, ⟨41, _⟩ => ⟨S8192x65, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x65, .f32⟩
  | .hbm, ⟨49, _⟩ => ⟨S8192x65, .f32⟩
  | .hbm, ⟨50, _⟩ => ⟨S8192x65, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x65, .f32⟩
  | .hbm, ⟨55, _⟩ => ⟨S8192x65, .f32⟩
  | .hbm, ⟨56, _⟩ => ⟨S8192x65x1, .f32⟩
  | .hbm, ⟨57, _⟩ => ⟨S8192x65x100, .f32⟩
  | .hbm, ⟨58, _⟩ => ⟨S8192x65x100, .f32⟩
  | .hbm, ⟨59, _⟩ => ⟨S_, .f32⟩
  | .hbm, ⟨60, _⟩ => ⟨S8192x100, .f32⟩
  | .hbm, ⟨61, _⟩ => ⟨S8192x1x100, .f32⟩
  | .hbm, ⟨62, _⟩ => ⟨S8192x65x100, .f32⟩
  | .hbm, ⟨63, _⟩ => ⟨S8192x65x100, .f32⟩
  | .hbm, ⟨64, _⟩ => ⟨S8192x65x100, .f32⟩
  | .hbm, ⟨65, _⟩ => ⟨S8192x65x400, .f32⟩
  | _, _ => ⟨S8192x65x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]

class Facts₀ : Prop where
  bcast_S65x100_S1x65x100_1_2 : S65x100.BroadcastsInDim S1x65x100 (![1, 2] : Fin 2 → Fin S1x65x100.rank)
  bcast_S1x65x100_S8192x65x100_0_1_2 : S1x65x100.BroadcastsInDim S8192x65x100 (![0, 1, 2] : Fin 3 → Fin S8192x65x100.rank)
  reducesTo_S8192x65x100_S8192x65_d2 : S8192x65x100.ReducesTo [2] S8192x65
  h_S_ : 0 < S_.numel
  bcast_S8192x65_S8192x65x1_0_1 : S8192x65.BroadcastsInDim S8192x65x1 (![0, 1] : Fin 2 → Fin S8192x65x1.rank)
  bcast_S20x100_S1x20x100_1_2 : S20x100.BroadcastsInDim S1x20x100 (![1, 2] : Fin 2 → Fin S1x20x100.rank)
  bcast_S1x20x100_S8192x20x100_0_1_2 : S1x20x100.BroadcastsInDim S8192x20x100 (![0, 1, 2] : Fin 3 → Fin S8192x20x100.rank)
  reducesTo_S8192x20x100_S8192x20_d2 : S8192x20x100.ReducesTo [2] S8192x20
  bcast_S8192x20_S8192x1x20_0_2 : S8192x20.BroadcastsInDim S8192x1x20 (![0, 2] : Fin 2 → Fin S8192x1x20.rank)
  bcast_S8192x65x1_S8192x65x20_0_1_2 : S8192x65x1.BroadcastsInDim S8192x65x20 (![0, 1, 2] : Fin 3 → Fin S8192x65x20.rank)
  bcast_S8192x1x20_S8192x65x20_0_1_2 : S8192x1x20.BroadcastsInDim S8192x65x20 (![0, 1, 2] : Fin 3 → Fin S8192x65x20.rank)
  reducesTo_S8192x65x20_S8192x65_d2 : S8192x65x20.ReducesTo [2] S8192x65
  bcast_S_S8192x65 : S_.BroadcastsInDim S8192x65 (![] : Fin 0 → Fin S8192x65.rank)
  reducesTo_S8192x65_S8192_d1 : S8192x65.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x65_0_1 : S8192x1.BroadcastsInDim S8192x65 (![0, 1] : Fin 2 → Fin S8192x65.rank)
  bcast_S8192x65x1_S8192x65x100_0_1_2 : S8192x65x1.BroadcastsInDim S8192x65x100 (![0, 1, 2] : Fin 3 → Fin S8192x65x100.rank)
  reducesTo_S8192x65x100_S8192x100_d1 : S8192x65x100.ReducesTo [1] S8192x100
  bcast_S8192x100_S8192x1x100_0_2 : S8192x100.BroadcastsInDim S8192x1x100 (![0, 2] : Fin 2 → Fin S8192x1x100.rank)
  bcast_S8192x1x100_S8192x65x100_0_1_2 : S8192x1x100.BroadcastsInDim S8192x65x100 (![0, 1, 2] : Fin 3 → Fin S8192x65x100.rank)
  concatenates_S8192x65x100_S8192x65x100_S8192x65x100_S8192x65x100_S8192x65x400_d2 : Shape.Concatenates [S8192x65x100, S8192x65x100, S8192x65x100, S8192x65x100] S8192x65x400 2
  dot_S8192x65x100_S8192x20x100_S8192x65x20_2_2_1_1_0_0_wf : DotDims.WF S8192x65x100 S8192x20x100 S8192x65x20 [2] [2] [1] [1] [0] [0]
  dot_S8192x65x20_S8192x20x100_S8192x65x100_2_1_1_2_0_0_wf : DotDims.WF S8192x65x20 S8192x20x100 S8192x65x100 [2] [1] [1] [2] [0] [0]

variable [Facts₀]

def dot_S8192x65x100_S8192x20x100_S8192x65x20_2_2_1_1_0_0 : DotDims S8192x65x100 S8192x20x100 S8192x65x20 where
  lhsContracting := [2]
  rhsContracting := [2]
  lhsNonContracting := [1]
  rhsNonContracting := [1]
  lhsBatch := [0]
  rhsBatch := [0]
  wf := dot_S8192x65x100_S8192x20x100_S8192x65x20_2_2_1_1_0_0_wf
def dot_S8192x65x20_S8192x20x100_S8192x65x100_2_1_1_2_0_0 : DotDims S8192x65x20 S8192x20x100 S8192x65x100 where
  lhsContracting := [2]
  rhsContracting := [1]
  lhsNonContracting := [1]
  rhsNonContracting := [2]
  lhsBatch := [0]
  rhsBatch := [0]
  wf := dot_S8192x65x20_S8192x20x100_S8192x65x100_2_1_1_2_0_0_wf

class Facts : Prop extends Facts₀ where

variable [Facts]
-- ==== Proof.Spec.lean ====
/-
  Bi-attention of ONE batch element, as functions on the extended reals.

  For a context block `h : 65 × 100`, a query block `u : 20 × 100` and three weight matrices
  `w1, w3 : 65 × 100`, `w2 : 20 × 100`:

    score t q   = (Σ_d h t d · w1 t d  +  Σ_d u q d · w2 q d)  +  Σ_d (h t d · w3 t d) · u q d
    rowMax t    = max over q of score t q                      (folded from −∞)
    att t q     = exp (score t q − max(−∞, rowMax t)) / Σ_q' exp (score t q' − max(−∞, rowMax t))
    util t d    = Σ_q att t q · u q d
    colMax      = max over t of rowMax t                       (folded from −∞)
    wgt t       = exp (rowMax t − max(−∞, colMax)) / Σ_t' exp (rowMax t' − max(−∞, colMax))
    htil d      = Σ_t wgt t · h t d
    out t j     = the j-th entry of the row  [ h t · | util t · | h t · ∘ util t · | h t · ∘ htil · ]   (four slabs of 100)

  Every batch element of the result depends on that element's own two blocks and on the weights only, so the whole
  result array is `out` of the batch element's blocks (`whole`), whatever the number of batch elements.  Both
  programs compute exactly these sums, maxima, exponentials and quotients, in this association, so no law of the
  extended reals beyond `0 + x = x` is needed to join them.
-/
import Idealize.ShloMosaic.PureOps.Ideal
import Idealize.ShloMosaic.PureOps.Ideal.Laws
import Idealize.ShloMosaic.Lib.ValueIdx

noncomputable section

namespace Cert.BiAttn

open Idealize.ShloMosaic Idealize.ShloMosaic.ValueIdx

/-- A matrix of extended reals. -/
abbrev Mat (a b : Nat) := Fin a → Fin b → EReal

/-- The value a maximum is folded from: the f32 word of −∞, read as an extended real. -/
abbrev negInf : EReal := Ideal.ofBits .f32 0xFF800000#32

/-- The attention score of context row `t` against query row `q`: two weighted row sums and a weighted inner product. -/
def score (h : Mat 65 100) (u : Mat 20 100) (w1 : Mat 65 100) (w2 : Mat 20 100) (w3 : Mat 65 100) : Mat 65 20 :=
  fun t q => ((∑ d : Fin 100, h t d * w1 t d) + ∑ d : Fin 100, u q d * w2 q d) + ∑ d : Fin 100, (h t d * w3 t d) * u q d

/-- The largest score of context row `t` over the query rows. -/
def rowMax (S : Mat 65 20) (t : Fin 65) : EReal :=
  (Finset.univ : Finset (Fin 20)).fold max negInf (fun q => S t q)

/-- The softmax of row `t` of the scores over the query rows. -/
def att (S : Mat 65 20) (t : Fin 65) (q : Fin 20) : EReal :=
  Ideal.div (Ideal.exp (S t q - max negInf (rowMax S t))) (∑ q' : Fin 20, Ideal.exp (S t q' - max negInf (rowMax S t)))

/-- The query rows averaged with the attention of context row `t`. -/
def util (S : Mat 65 20) (u : Mat 20 100) (t : Fin 65) (d : Fin 100) : EReal :=
  ∑ q : Fin 20, att S t q * u q d

/-- The largest of the rows' maxima. -/
def colMax (S : Mat 65 20) : EReal :=
  (Finset.univ : Finset (Fin 65)).fold max negInf (fun t => rowMax S t)

/-- The softmax of the rows' maxima over the context rows. -/
def wgt (S : Mat 65 20) (t : Fin 65) : EReal :=
  Ideal.div (Ideal.exp (rowMax S t - max negInf (colMax S))) (∑ t' : Fin 65, Ideal.exp (rowMax S t' - max negInf (colMax S)))

/-- The context rows averaged with those weights. -/
def htil (S : Mat 65 20) (h : Mat 65 100) (d : Fin 100) : EReal :=
  ∑ t : Fin 65, wgt S t * h t d

/-- One of four values by the number of the slab. -/
def slab (s : Nat) (a b c d : EReal) : EReal :=
  match s with
  | 0 => a
  | 1 => b
  | 2 => c
  | _ => d

/-- The column inside its slab of 100. -/
def col (j : Fin 400) : Fin 100 := ⟨j.val % 100, Nat.mod_lt _ (by decide)⟩

/-- Row `t` of the result of one batch element: the context row, the attended query, and their two products, side by side. -/
def out (h : Mat 65 100) (u : Mat 20 100) (S : Mat 65 20) (t : Fin 65) (j : Fin 400) : EReal :=
  slab (j.val / 100) (h t (col j)) (util S u t (col j)) (h t (col j) * util S u t (col j)) (h t (col j) * htil S h (col j))

/-- Batch element `b` of a rank-3 array, as a matrix. -/
def rows {B a c : Nat} (X : (⟨3, ![B, a, c]⟩ : Shape).Idx → EReal) (b : Fin B) : Mat a c := fun r k => X (ix3 b r k)

/-- A rank-2 array as a matrix. -/
def mat {a c : Nat} (W : (⟨2, ![a, c]⟩ : Shape).Idx → EReal) : Mat a c := fun r k => W (ix2 r k)

/-- The scores of batch element `b`. -/
def scoreOf {B : Nat} (X0 : (⟨3, ![B, 65, 100]⟩ : Shape).Idx → EReal) (X1 : (⟨3, ![B, 20, 100]⟩ : Shape).Idx → EReal)
    (W1 : (⟨2, ![65, 100]⟩ : Shape).Idx → EReal) (W2 : (⟨2, ![20, 100]⟩ : Shape).Idx → EReal) (W3 : (⟨2, ![65, 100]⟩ : Shape).Idx → EReal)
    (b : Fin B) : Mat 65 20 :=
  score (rows X0 b) (rows X1 b) (mat W1) (mat W2) (mat W3)

/-- THE RESULT ARRAY for `B` batch elements, entry by entry. -/
def whole {B : Nat} (X0 : (⟨3, ![B, 65, 100]⟩ : Shape).Idx → EReal) (X1 : (⟨3, ![B, 20, 100]⟩ : Shape).Idx → EReal)
    (W1 : (⟨2, ![65, 100]⟩ : Shape).Idx → EReal) (W2 : (⟨2, ![20, 100]⟩ : Shape).Idx → EReal) (W3 : (⟨2, ![65, 100]⟩ : Shape).Idx → EReal) :
    (⟨3, ![B, 65, 400]⟩ : Shape).Idx → EReal :=
  fun i => out (rows X0 (i 0)) (rows X1 (i 0)) (scoreOf X0 X1 W1 W2 W3 (i 0)) (i 1) (i 2)

theorem whole_ix3 {B : Nat} (X0 : (⟨3, ![B, 65, 100]⟩ : Shape).Idx → EReal) (X1 : (⟨3, ![B, 20, 100]⟩ : Shape).Idx → EReal)
    (W1 : (⟨2, ![65, 100]⟩ : Shape).Idx → EReal) (W2 : (⟨2, ![20, 100]⟩ : Shape).Idx → EReal) (W3 : (⟨2, ![65, 100]⟩ : Shape).Idx → EReal)
    (b : Fin B) (t : Fin 65) (j : Fin 400) :
    whole X0 X1 W1 W2 W3 (ix3 b t j) = out (rows X0 b) (rows X1 b) (scoreOf X0 X1 W1 W2 W3 b) t j := rfl

/-- The slab and the column of entry `100·s + d`. -/
theorem slab_at (s : Nat) (d : Fin 100) (hs : 100 * s + d.val < 400) :
    (⟨100 * s + d.val, hs⟩ : Fin 400).val / 100 = s ∧ col ⟨100 * s + d.val, hs⟩ = d := by
  have hd := d.isLt
  refine ⟨?_, Fin.ext ?_⟩
  · show (100 * s + d.val) / 100 = s; omega
  · show (100 * s + d.val) % 100 = d.val; omega

/-- Entry `100·s + d` of a result row is entry `d` of slab `s`. -/
theorem whole_slab {B : Nat} (X0 : (⟨3, ![B, 65, 100]⟩ : Shape).Idx → EReal) (X1 : (⟨3, ![B, 20, 100]⟩ : Shape).Idx → EReal)
    (W1 : (⟨2, ![65, 100]⟩ : Shape).Idx → EReal) (W2 : (⟨2, ![20, 100]⟩ : Shape).Idx → EReal) (W3 : (⟨2, ![65, 100]⟩ : Shape).Idx → EReal)
    (b : Fin B) (t : Fin 65) (s : Nat) (d : Fin 100) (hs : 100 * s + d.val < 400) :
    whole X0 X1 W1 W2 W3 (ix3 b t ⟨100 * s + d.val, hs⟩)
      = slab s (rows X0 b t d) (util (scoreOf X0 X1 W1 W2 W3 b) (rows X1 b) t d)
          (rows X0 b t d * util (scoreOf X0 X1 W1 W2 W3 b) (rows X1 b) t d)
          (rows X0 b t d * htil (scoreOf X0 X1 W1 W2 W3 b) (rows X0 b) d) := by
  rw [whole_ix3]
  unfold out
  obtain ⟨h1, h2⟩ := slab_at s d hs
  rw [h1, h2]

/-- Entry `j` of a result row is the entry at column `j % 100` of slab `j / 100`. -/
theorem whole_at {B : Nat} (X0 : (⟨3, ![B, 65, 100]⟩ : Shape).Idx → EReal) (X1 : (⟨3, ![B, 20, 100]⟩ : Shape).Idx → EReal)
    (W1 : (⟨2, ![65, 100]⟩ : Shape).Idx → EReal) (W2 : (⟨2, ![20, 100]⟩ : Shape).Idx → EReal) (W3 : (⟨2, ![65, 100]⟩ : Shape).Idx → EReal)
    (b : Fin B) (t : Fin 65) (j : Fin 400) :
    whole X0 X1 W1 W2 W3 (ix3 b t j)
      = slab (j.val / 100) (rows X0 b t (col j)) (util (scoreOf X0 X1 W1 W2 W3 b) (rows X1 b) t (col j))
          (rows X0 b t (col j) * util (scoreOf X0 X1 W1 W2 W3 b) (rows X1 b) t (col j))
          (rows X0 b t (col j) * htil (scoreOf X0 X1 W1 W2 W3 b) (rows X0 b) (col j)) := rfl

/-- A BLOCK OF THE RESULT: when a block of `n` batch elements holds batch elements `o, o + 1, …` of the two arrays, and the same
    weights, the result of the block is that stretch of the result of the arrays: each batch element is computed from its own
    data only. -/
theorem whole_block {B n : Nat} (X0 : (⟨3, ![B, 65, 100]⟩ : Shape).Idx → EReal) (X1 : (⟨3, ![B, 20, 100]⟩ : Shape).Idx → EReal)
    (x0 : (⟨3, ![n, 65, 100]⟩ : Shape).Idx → EReal) (x1 : (⟨3, ![n, 20, 100]⟩ : Shape).Idx → EReal)
    (W1 : (⟨2, ![65, 100]⟩ : Shape).Idx → EReal) (W2 : (⟨2, ![20, 100]⟩ : Shape).Idx → EReal) (W3 : (⟨2, ![65, 100]⟩ : Shape).Idx → EReal)
    (y : Fin n) (g : Fin B)
    (h0 : ∀ (r : Fin 65) (d : Fin 100), x0 (ix3 y r d) = X0 (ix3 g r d))
    (h1 : ∀ (r : Fin 20) (d : Fin 100), x1 (ix3 y r d) = X1 (ix3 g r d))
    (r : Fin 65) (k : Fin 400) :
    whole x0 x1 W1 W2 W3 (ix3 y r k) = whole X0 X1 W1 W2 W3 (ix3 g r k) := by
  have r0 : rows x0 y = rows X0 g := funext fun r => funext fun d => h0 r d
  have r1 : rows x1 y = rows X1 g := funext fun r => funext fun d => h1 r d
  rw [whole_ix3, whole_ix3]
  unfold scoreOf
  rw [r0, r1]

end Cert.BiAttn

end
-- ==== Proof.RefStages.lean ====
/-
  The reference computes, batch element by batch element, the bi-attention of the specification.

  Each lemma reads one intermediate array of the reference at an index written by its coordinates — batch element `b`,
  context row `t`, query row `q`, feature `d` — and says which quantity of the specification it holds there:
  the three sums that make a score, the score, the row maxima, the exponentials and their row sums, the attention,
  the attended query; then the maximum of the row maxima, the second softmax over the context rows and the attended
  context.  A host sum starts from the word of `0`, which adds nothing; a host maximum is a fold of `max` over the
  reduced axis from the word of −∞, the same fold the specification takes.  The last lemma reads the concatenation:
  entry `j` of a result row lies in slab `j / 100` at column `j % 100`.
-/
import proofs.«153154_j51067161150211_1_alg».proof.Proof.RefRead
import proofs.«153154_j51067161150211_1_alg».proof.Proof.Spec
import Idealize.ShloMosaic.PureOps.Ideal.Laws
import Idealize.ShloMosaic.PureOps.Reduce

noncomputable section

namespace Cert.BiAttn.Ref

open Cert.ReferenceIdeal Cert.ReferenceIdeal.Gen Cert.ReferenceIdeal.ReadP Idealize.ShloMosaic Idealize.ShloMosaic.ValueIdx Cert.BiAttn

/-- Two indices of a rank-1, rank-2 or rank-3 shape with equal coordinates are equal. -/
local macro "idx1" : tactic => `(tactic| (funext a; apply Fin.ext; match a with | ⟨0, _⟩ => rfl))
local macro "idx2" : tactic => `(tactic| (funext a; apply Fin.ext; match a with | ⟨0, _⟩ => rfl | ⟨1, _⟩ => rfl))
local macro "idx3" : tactic => `(tactic| (funext a; apply Fin.ext; match a with | ⟨0, _⟩ => rfl | ⟨1, _⟩ => rfl | ⟨2, _⟩ => rfl))

variable (X0 : (⟨S8192x65x100, .f32⟩ : BufTy).Contents (Elt Ideal)) (X1 : (⟨S8192x20x100, .f32⟩ : BufTy).Contents (Elt Ideal))
  (X2 : (⟨S65x100, .f32⟩ : BufTy).Contents (Elt Ideal)) (X3 : (⟨S20x100, .f32⟩ : BufTy).Contents (Elt Ideal))
  (X4 : (⟨S65x100, .f32⟩ : BufTy).Contents (Elt Ideal))

/-! ## The score -/

/-- The context row weighted by the first weights and summed. -/
theorem ctx_sum (b : Fin 8192) (t : Fin 65) :
    val_main_v3 (F := Ideal) X0 X2 (ix2 b t) = ∑ d : Fin 100, rows X0 b t d * mat X2 t d := by
  rw [val_main_v3_apply]
  show Ideal.ofBits .f32 0x00000000#32 + _ = _
  rw [Ideal.ofBits_zero_f32, zero_add]
  refine Finset.sum_congr rfl fun d _ => ?_
  rw [val_main_v2_apply, val_main_v1_apply, val_main_v0_apply]
  have e1 : idx_main_v3 (ix2 b t) d = ix3 b t d := by idx3
  have e2 : idx_main_v0 (idx_main_v1 (idx_main_v3 (ix2 b t) d)) = ix2 t d := by idx2
  rw [e2, e1]; rfl

/-- The query row weighted by the second weights and summed. -/
theorem qry_sum (b : Fin 8192) (q : Fin 20) :
    val_main_v8 (F := Ideal) X1 X3 (ix2 b q) = ∑ d : Fin 100, rows X1 b q d * mat X3 q d := by
  rw [val_main_v8_apply]
  show Ideal.ofBits .f32 0x00000000#32 + _ = _
  rw [Ideal.ofBits_zero_f32, zero_add]
  refine Finset.sum_congr rfl fun d _ => ?_
  rw [val_main_v7_apply, val_main_v6_apply, val_main_v5_apply]
  have e1 : idx_main_v8 (ix2 b q) d = ix3 b q d := by idx3
  have e2 : idx_main_v5 (idx_main_v6 (idx_main_v8 (ix2 b q) d)) = ix2 q d := by idx2
  rw [e2, e1]; rfl

/-- The inner product of the context row, weighted by the third weights, with the query row. -/
theorem inner (b : Fin 8192) (t : Fin 65) (q : Fin 20) :
    val_main_v13 (F := Ideal) X0 X1 X4 (ix3 b t q) = ∑ d : Fin 100, (rows X0 b t d * mat X4 t d) * rows X1 b q d := by
  rw [val_main_v13_apply]
  refine Finset.sum_congr rfl fun d _ => ?_
  rw [val_main_v12_apply, val_main_v11_apply, val_main_v10_apply]
  have e1 : lidx_main_v13 (ix3 b t q) d = ix3 b t d := by idx3
  have e2 : idx_main_v10 (idx_main_v11 (lidx_main_v13 (ix3 b t q) d)) = ix2 t d := by idx2
  have e3 : ridx_main_v13 (ix3 b t q) d = ix3 b q d := by idx3
  rw [e2, e1, e3]; rfl

/-- The score array holds the scores of each batch element. -/
theorem score_eq (b : Fin 8192) (t : Fin 65) (q : Fin 20) :
    val_main_v17 (F := Ideal) X0 X1 X2 X3 X4 (ix3 b t q) = scoreOf X0 X1 X2 X3 X4 b t q := by
  rw [val_main_v17_apply, val_main_v16_apply, val_main_v14_apply, val_main_v4_apply, val_main_v15_apply, val_main_v9_apply]
  have e1 : idx_main_v4 (idx_main_v14 (ix3 b t q)) = ix2 b t := by idx2
  have e2 : idx_main_v9 (idx_main_v15 (ix3 b t q)) = ix2 b q := by idx2
  rw [e1, e2, ctx_sum, qry_sum, inner]; rfl

/-! ## The first softmax and the attended query -/

/-- A maximum over the query rows of the score array is the specification's row maximum (either of the two reductions the
    reference takes of the score array: they differ only in the name of their constant). -/
theorem rowMax_of_reduce (cst : (⟨S_, .f32⟩ : BufTy).Contents (Elt Ideal)) (hc : cst (Shape.Idx.first h_S_) = negInf)
    (b : Fin 8192) (t : Fin 65) :
    Host.reduce (FloatOps.maximumf (F := Ideal) (φ := .f32)) (val_main_v17 (F := Ideal) X0 X1 X2 X3 X4) cst reducesTo_S8192x65x20_S8192x65_d2 h_S_ (ix2 b t)
      = rowMax (scoreOf X0 X1 X2 X3 X4 b) t := by
  have h : S8192x65x20.Reduces [2] S8192x65 := by decide
  rw [Host.reduce_eq_fold_single (FloatOps.maximumf (F := Ideal) (φ := .f32)) _ _ reducesTo_S8192x65x20_S8192x65_d2 h h_S_, hc]
  have hf : (val_main_v17 (F := Ideal) X0 X1 X2 X3 X4 ∘ h.lift (ix2 b t)) = fun q : Fin 20 => scoreOf X0 X1 X2 X3 X4 b t q := by
    funext q
    have e : h.lift (ix2 b t) q = ix3 b t q := by idx3
    rw [Function.comp_apply, e]; exact score_eq X0 X1 X2 X3 X4 b t q
  rw [hf]; rfl

theorem rowMax_first (b : Fin 8192) (t : Fin 65) :
    val_main_v18 (F := Ideal) X0 X1 X2 X3 X4 (ix2 b t) = rowMax (scoreOf X0 X1 X2 X3 X4 b) t := by
  unfold val_main_v18; exact rowMax_of_reduce X0 X1 X2 X3 X4 _ rfl b t

theorem rowMax_second (b : Fin 8192) (t : Fin 65) :
    val_main_v30 (F := Ideal) X0 X1 X2 X3 X4 (ix2 b t) = rowMax (scoreOf X0 X1 X2 X3 X4 b) t := by
  unfold val_main_v30; exact rowMax_of_reduce X0 X1 X2 X3 X4 _ rfl b t

/-- The exponentials of the scores less their row's maximum. -/
theorem exp_row (b : Fin 8192) (t : Fin 65) (q : Fin 20) :
    val_main_v24 (F := Ideal) X0 X1 X2 X3 X4 (ix3 b t q)
      = Ideal.exp (scoreOf X0 X1 X2 X3 X4 b t q - max negInf (rowMax (scoreOf X0 X1 X2 X3 X4 b) t)) := by
  rw [val_main_v24_apply, val_main_v23_apply, val_main_v22_apply, val_main_v21_apply, val_main_v20_apply, val_main_v19_apply]
  have e1 : idx_main_v21 (idx_main_v22 (ix3 b t q)) = ix2 b t := by idx2
  rw [e1, score_eq, rowMax_first]; rfl

/-- Their sum over the query rows. -/
theorem exp_row_sum (b : Fin 8192) (t : Fin 65) :
    val_main_v25 (F := Ideal) X0 X1 X2 X3 X4 (ix2 b t)
      = ∑ q : Fin 20, Ideal.exp (scoreOf X0 X1 X2 X3 X4 b t q - max negInf (rowMax (scoreOf X0 X1 X2 X3 X4 b) t)) := by
  rw [val_main_v25_apply]
  show Ideal.ofBits .f32 0x00000000#32 + _ = _
  rw [Ideal.ofBits_zero_f32, zero_add]
  refine Finset.sum_congr rfl fun q _ => ?_
  have e : idx_main_v25 (ix2 b t) q = ix3 b t q := by idx3
  rw [e]; exact exp_row X0 X1 X2 X3 X4 b t q

/-- The attention. -/
theorem att_eq (b : Fin 8192) (t : Fin 65) (q : Fin 20) :
    val_main_v28 (F := Ideal) X0 X1 X2 X3 X4 (ix3 b t q) = att (scoreOf X0 X1 X2 X3 X4 b) t q := by
  rw [val_main_v28_apply, val_main_v27_apply, val_main_v26_apply]
  have e1 : idx_main_v26 (idx_main_v27 (ix3 b t q)) = ix2 b t := by idx2
  rw [e1, exp_row, exp_row_sum]; rfl

/-- The attended query. -/
theorem util_eq (b : Fin 8192) (t : Fin 65) (d : Fin 100) :
    val_main_v29 (F := Ideal) X0 X1 X2 X3 X4 (ix3 b t d) = util (scoreOf X0 X1 X2 X3 X4 b) (rows X1 b) t d := by
  rw [val_main_v29_apply]
  unfold util
  refine Finset.sum_congr rfl fun q _ => ?_
  have e1 : lidx_main_v29 (ix3 b t d) q = ix3 b t q := by idx3
  have e2 : ridx_main_v29 (ix3 b t d) q = ix3 b q d := by idx3
  rw [e1, e2, att_eq]; rfl

/-! ## The second softmax and the attended context -/

/-- The maximum of the row maxima. -/
theorem colMax_eq (b : Fin 8192) :
    val_main_v31 (F := Ideal) X0 X1 X2 X3 X4 (ix1 b) = colMax (scoreOf X0 X1 X2 X3 X4 b) := by
  unfold val_main_v31
  have h : S8192x65.Reduces [1] S8192 := by decide
  rw [Host.reduce_eq_fold_single (FloatOps.maximumf (F := Ideal) (φ := .f32)) _ _ reducesTo_S8192x65_S8192_d1 h h_S_]
  have hf : (val_main_v30 (F := Ideal) X0 X1 X2 X3 X4 ∘ h.lift (ix1 b)) = fun t : Fin 65 => rowMax (scoreOf X0 X1 X2 X3 X4 b) t := by
    funext t
    have e : h.lift (ix1 b) t = ix2 b t := by idx2
    rw [Function.comp_apply, e]; exact rowMax_second X0 X1 X2 X3 X4 b t
  rw [hf]; rfl

/-- The exponentials of the row maxima less their maximum. -/
theorem exp_col (b : Fin 8192) (t : Fin 65) :
    val_main_v37 (F := Ideal) X0 X1 X2 X3 X4 (ix2 b t)
      = Ideal.exp (rowMax (scoreOf X0 X1 X2 X3 X4 b) t - max negInf (colMax (scoreOf X0 X1 X2 X3 X4 b))) := by
  rw [val_main_v37_apply, val_main_v36_apply, val_main_v35_apply, val_main_v34_apply, val_main_v33_apply, val_main_v32_apply]
  have e1 : idx_main_v34 (idx_main_v35 (ix2 b t)) = ix1 b := by idx1
  rw [e1, rowMax_second, colMax_eq]; rfl

/-- Their sum over the context rows. -/
theorem exp_col_sum (b : Fin 8192) :
    val_main_v38 (F := Ideal) X0 X1 X2 X3 X4 (ix1 b)
      = ∑ t : Fin 65, Ideal.exp (rowMax (scoreOf X0 X1 X2 X3 X4 b) t - max negInf (colMax (scoreOf X0 X1 X2 X3 X4 b))) := by
  rw [val_main_v38_apply]
  show Ideal.ofBits .f32 0x00000000#32 + _ = _
  rw [Ideal.ofBits_zero_f32, zero_add]
  refine Finset.sum_congr rfl fun t _ => ?_
  have e : idx_main_v38 (ix1 b) t = ix2 b t := by idx2
  rw [e]; exact exp_col X0 X1 X2 X3 X4 b t

/-- The weights of the context rows. -/
theorem wgt_eq (b : Fin 8192) (t : Fin 65) :
    val_main_v41 (F := Ideal) X0 X1 X2 X3 X4 (ix2 b t) = wgt (scoreOf X0 X1 X2 X3 X4 b) t := by
  rw [val_main_v41_apply, val_main_v40_apply, val_main_v39_apply]
  have e1 : idx_main_v39 (idx_main_v40 (ix2 b t)) = ix1 b := by idx1
  rw [e1, exp_col, exp_col_sum]; rfl

/-- The attended context. -/
theorem htil_eq (b : Fin 8192) (d : Fin 100) :
    val_main_v45 (F := Ideal) X0 X1 X2 X3 X4 (ix2 b d) = htil (scoreOf X0 X1 X2 X3 X4 b) (rows X0 b) d := by
  rw [val_main_v45_apply]
  show Ideal.ofBits .f32 0x00000000#32 + _ = _
  rw [Ideal.ofBits_zero_f32, zero_add]
  unfold htil
  refine Finset.sum_congr rfl fun t _ => ?_
  rw [val_main_v44_apply, val_main_v43_apply, val_main_v42_apply]
  have e0 : idx_main_v45 (ix2 b d) t = ix3 b t d := by idx3
  have e1 : idx_main_v42 (idx_main_v43 (idx_main_v45 (ix2 b d) t)) = ix2 b t := by idx2
  rw [e1, e0, wgt_eq]; rfl

end Cert.BiAttn.Ref

end
-- ==== Proof.RefWhole.lean ====
/-
  The reference's result is the specification's result array.

  The reference joins four arrays side by side along the last axis: the context, the attended query, and the context's
  products with the attended query and with the attended context.  Entry `j` of a joined row lies in the operand number
  `j / 100`, at column `j % 100`; each operand at that column is the corresponding slab of the specification.
-/
import proofs.«153154_j51067161150211_1_alg».proof.Proof.RefStages

noncomputable section

namespace Cert.BiAttn.Ref

open Cert.ReferenceIdeal Cert.ReferenceIdeal.Gen Cert.ReferenceIdeal.ReadP Idealize.ShloMosaic Idealize.ShloMosaic.ValueIdx Cert.BiAttn

local macro "idx2" : tactic => `(tactic| (funext a; apply Fin.ext; match a with | ⟨0, _⟩ => rfl | ⟨1, _⟩ => rfl))

variable (X0 : (⟨S8192x65x100, .f32⟩ : BufTy).Contents (Elt Ideal)) (X1 : (⟨S8192x20x100, .f32⟩ : BufTy).Contents (Elt Ideal))
  (X2 : (⟨S65x100, .f32⟩ : BufTy).Contents (Elt Ideal)) (X3 : (⟨S20x100, .f32⟩ : BufTy).Contents (Elt Ideal))
  (X4 : (⟨S65x100, .f32⟩ : BufTy).Contents (Elt Ideal))

/-- THE REFERENCE'S RESULT, entry by entry, is the bi-attention of each batch element laid out in four slabs. -/
theorem whole_eq : val_main_v50 (F := Ideal) X0 X1 X2 X3 X4 = whole X0 X1 X2 X3 X4 := by
  funext i
  obtain ⟨b, t, j, rfl⟩ : ∃ (b : Fin 8192) (t : Fin 65) (j : Fin 400), i = ix3 b t j := ⟨i 0, i 1, i 2, eq_ix3 i⟩
  have hj := j.isLt
  have hc : (col j).val = j.val % 100 := rfl
  -- off the joined axis the operand's index has the entry's coordinates
  have hi : ∀ a : Fin S8192x65x100.rank, a.cast (rfl : S8192x65x100.rank = S8192x65x400.rank) ≠ (2 : Fin 3) →
      ((ix3 b t (col j) : S8192x65x100.Idx) a).val = ((ix3 b t j : S8192x65x400.Idx) (a.cast rfl)).val := fun a ha => by
    match a with
    | ⟨0, _⟩ => rfl
    | ⟨1, _⟩ => rfl
    | ⟨2, _⟩ => exact absurd (Fin.ext rfl) ha
  rw [whole_at]
  unfold val_main_v50
  rcases (by omega : j.val / 100 = 0 ∨ j.val / 100 = 1 ∨ j.val / 100 = 2 ∨ j.val / 100 = 3) with h | h | h | h
  · rw [h]
    exact concatenate_apply_piece (t := S8192x65x400) (2 : Fin 3)
      [⟨S8192x65x100, X0⟩, ⟨S8192x65x100, val_main_v29 (F := Ideal) X0 X1 X2 X3 X4⟩, ⟨S8192x65x100, val_main_v47 (F := Ideal) X0 X1 X2 X3 X4⟩, ⟨S8192x65x100, val_main_v49 (F := Ideal) X0 X1 X2 X3 X4⟩]
      concatenates_S8192x65x100_S8192x65x100_S8192x65x100_S8192x65x100_S8192x65x400_d2 (ix3 b t j) 0 (by simp) S8192x65x100 X0 rfl rfl 0 rfl (ix3 b t (col j)) hi
      (by show 0 + (col j).val = j.val; omega)
  · rw [h]
    refine (concatenate_apply_piece (t := S8192x65x400) (2 : Fin 3)
      [⟨S8192x65x100, X0⟩, ⟨S8192x65x100, val_main_v29 (F := Ideal) X0 X1 X2 X3 X4⟩, ⟨S8192x65x100, val_main_v47 (F := Ideal) X0 X1 X2 X3 X4⟩, ⟨S8192x65x100, val_main_v49 (F := Ideal) X0 X1 X2 X3 X4⟩]
      concatenates_S8192x65x100_S8192x65x100_S8192x65x100_S8192x65x100_S8192x65x400_d2 (ix3 b t j) 1 (by simp) S8192x65x100 (val_main_v29 (F := Ideal) X0 X1 X2 X3 X4) rfl rfl 100 rfl
      (ix3 b t (col j)) hi (by show 100 + (col j).val = j.val; omega)).trans ?_
    exact util_eq X0 X1 X2 X3 X4 b t (col j)
  · rw [h]
    refine (concatenate_apply_piece (t := S8192x65x400) (2 : Fin 3)
      [⟨S8192x65x100, X0⟩, ⟨S8192x65x100, val_main_v29 (F := Ideal) X0 X1 X2 X3 X4⟩, ⟨S8192x65x100, val_main_v47 (F := Ideal) X0 X1 X2 X3 X4⟩, ⟨S8192x65x100, val_main_v49 (F := Ideal) X0 X1 X2 X3 X4⟩]
      concatenates_S8192x65x100_S8192x65x100_S8192x65x100_S8192x65x100_S8192x65x400_d2 (ix3 b t j) 2 (by simp) S8192x65x100 (val_main_v47 (F := Ideal) X0 X1 X2 X3 X4) rfl rfl 200 rfl
      (ix3 b t (col j)) hi (by show 200 + (col j).val = j.val; omega)).trans ?_
    rw [val_main_v47_apply, util_eq]; rfl
  · rw [h]
    refine (concatenate_apply_piece (t := S8192x65x400) (2 : Fin 3)
      [⟨S8192x65x100, X0⟩, ⟨S8192x65x100, val_main_v29 (F := Ideal) X0 X1 X2 X3 X4⟩, ⟨S8192x65x100, val_main_v47 (F := Ideal) X0 X1 X2 X3 X4⟩, ⟨S8192x65x100, val_main_v49 (F := Ideal) X0 X1 X2 X3 X4⟩]
      concatenates_S8192x65x100_S8192x65x100_S8192x65x100_S8192x65x100_S8192x65x400_d2 (ix3 b t j) 3 (by simp) S8192x65x100 (val_main_v49 (F := Ideal) X0 X1 X2 X3 X4) rfl rfl 300 rfl
      (ix3 b t (col j)) hi (by show 300 + (col j).val = j.val; omega)).trans ?_
    rw [val_main_v49_apply, val_main_v48_apply, val_main_v46_apply]
    have e : idx_main_v46 (idx_main_v48 (ix3 b t (col j))) = ix2 b (col j) := by idx2
    rw [e, htil_eq]; rfl

end Cert.BiAttn.Ref

end
-- ==== Proof.Layout.lean ====
/-
  Layout operations of rank-3 blocks read at an index written by its coordinates.

  A reduction over the last or the middle axis of an `[m, a, b]` block leaves an `[m, a]` or `[m, b]` array; the body
  puts the reduced axis back as a unit axis by a shape cast and spreads the result over the block again by a broadcast.
  Each lemma below says which entry of the operand such a cast or broadcast reads at `(k, i, j)`: the unit coordinate
  is `0`, the others are kept.  (Row-major positions agree because a unit axis contributes nothing to them.)
-/
import Idealize.ShloMosaic.Lib.Pipeline.Value
import Idealize.ShloMosaic.Lib.ValueIdx
import Idealize.ShloMosaic.Lib.ValueLayout

namespace Cert.BiAttn.Layout

open Idealize.ShloMosaic Idealize.ShloMosaic.ValueIdx

variable {α : Type}

/-- One `[a, b]` matrix, held as `[1, a, b]`, repeated over `m` batch elements. -/
theorem broadcastTo_1ab_mab_apply {m a b : ℕ} (v : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `[m, a]` array with a trailing unit axis put back. -/
theorem shapeCast_ma_ma1_apply {m a : ℕ} (x : (⟨2, ![m, a]⟩ : Shape).Idx → α)
    (h : (⟨2, ![m, a]⟩ : Shape).ShapeCasts ⟨3, ![m, a, 1]⟩) (k : Fin m) (i : Fin a) (u : Fin 1) :
    shapeCast ⟨3, ![m, a, 1]⟩ x h (ix3 k i u) = x (ix2 k i) :=
  shapeCast_apply x h _ _ (by
    have hu : u.val = 0 := by omega
    rw [Shape.rowMajor_val_three, Shape.rowMajor_val_two]
    show k.val * a + i.val = (k.val * a + i.val) * 1 + u.val
    rw [hu, Nat.mul_one, Nat.add_zero])

/-- An `[m, a, 1]` column spread over `b` lanes. -/
theorem broadcastTo_ma1_mab_apply {m a b : ℕ} (v : (⟨3, ![m, a, 1]⟩ : Shape).Idx → α)
    (h : (⟨3, ![m, a, 1]⟩ : Shape).Broadcasts ⟨3, ![m, a, b]⟩) (k : Fin m) (i : Fin a) (j : Fin b) :
    broadcastTo ⟨3, ![m, a, b]⟩ v h (ix3 k i j) = v (ix3 k i (0 : Fin 1)) := by
  refine broadcastTo_apply v h (ix3 k i j) (ix3 k i (0 : Fin 1)) fun ax => ?_
  match ax with
  | ⟨0, _⟩ =>
    show k.val = if m = 1 then 0 else k.val
    split
    · have := k.isLt; omega
    · rfl
  | ⟨1, _⟩ =>
    show i.val = if a = 1 then 0 else i.val
    split
    · have := i.isLt; omega
    · rfl
  | ⟨2, _⟩ => rfl

/-- An `[m, 1, b]` row spread over `a` rows. -/
theorem broadcastTo_m1b_mab_apply {m a b : ℕ} (v : (⟨3, ![m, 1, b]⟩ : Shape).Idx → α)
    (h : (⟨3, ![m, 1, b]⟩ : Shape).Broadcasts ⟨3, ![m, a, b]⟩) (k : Fin m) (i : Fin a) (j : Fin b) :
    broadcastTo ⟨3, ![m, a, b]⟩ v h (ix3 k i j) = v (ix3 k (0 : Fin 1) j) := by
  refine broadcastTo_apply v h (ix3 k i j) (ix3 k (0 : Fin 1) j) fun ax => ?_
  match ax with
  | ⟨0, _⟩ =>
    show k.val = if m = 1 then 0 else k.val
    split
    · have := k.isLt; omega
    · rfl
  | ⟨1, _⟩ => rfl
  | ⟨2, _⟩ =>
    show j.val = if b = 1 then 0 else j.val
    split
    · have := j.isLt; omega
    · rfl

/-- An `[m]` vector with a trailing unit axis put back. -/
theorem shapeCast_m_m1_apply {m : ℕ} (x : (⟨1, ![m]⟩ : Shape).Idx → α)
    (h : (⟨1, ![m]⟩ : Shape).ShapeCasts ⟨2, ![m, 1]⟩) (k : Fin m) (u : Fin 1) :
    shapeCast ⟨2, ![m, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

/-- An `[m, 1]` column spread over `a` lanes. -/
theorem broadcastTo_m1_ma_apply {m a : ℕ} (v : (⟨2, ![m, 1]⟩ : Shape).Idx → α)
    (h : (⟨2, ![m, 1]⟩ : Shape).Broadcasts ⟨2, ![m, a]⟩) (k : Fin m) (i : Fin a) :
    broadcastTo ⟨2, ![m, a]⟩ v h (ix2 k i) = v (ix2 k (0 : Fin 1)) := by
  refine broadcastTo_apply v h (ix2 k i) (ix2 k (0 : Fin 1)) fun ax => ?_
  match ax with
  | ⟨0, _⟩ =>
    show k.val = if m = 1 then 0 else k.val
    split
    · have := k.isLt; omega
    · rfl
  | ⟨1, _⟩ => rfl

/-- An `[m, b]` array with a middle unit axis put back. -/
theorem shapeCast_mb_m1b_apply {m b : ℕ} (x : (⟨2, ![m, b]⟩ : Shape).Idx → α)
    (h : (⟨2, ![m, b]⟩ : Shape).ShapeCasts ⟨3, ![m, 1, b]⟩) (k : Fin m) (u : Fin 1) (j : Fin b) :
    shapeCast ⟨3, ![m, 1, b]⟩ x h (ix3 k u j) = x (ix2 k j) :=
  shapeCast_apply x h _ _ (by
    have hu : u.val = 0 := by omega
    rw [Shape.rowMajor_val_three, Shape.rowMajor_val_two]
    show k.val * b + j.val = (k.val * 1 + u.val) * b + j.val
    rw [hu, Nat.mul_one, Nat.add_zero])

end Cert.BiAttn.Layout
-- ==== Proof.KerMatmul.lean ====
/-
  The body's two batched matrix products read at an index.

  Into a zero accumulator a matrix product is, at each output entry, the sum over the contracted axis of the products of
  the two operands' entries.  For the first product (scores: context rows against query rows, contracted over the 100
  features) entry `(y, t, q)` sums `L (y, t, d) · R (y, q, d)` over `d`; for the second (the attended query: attention
  against query rows, contracted over the 20 query rows) entry `(y, t, d)` sums `L (y, t, q) · R (y, q, d)` over `q`.
  In both the leading axis is a batch axis: entry `y` of the result reads entry `y` of both operands.
-/
import proofs.«153154_j51067161150211_1_alg».proof.Proof.Gen.KernelIdeal
import Idealize.ShloMosaic.PureOps.Ideal.Laws
import Idealize.ShloMosaic.Lib.ValueIdx

noncomputable section

namespace Cert.BiAttn.Ker

open Cert.KernelIdeal Cert.KernelIdeal.Gen Idealize.ShloMosaic Idealize.ShloMosaic.ValueIdx

/-- The dimension record of the score product. -/
abbrev dotScore : DotDims S32x65x100 S32x20x100 S32x65x20 := dot_S32x65x100_S32x20x100_S32x65x20_2_2_1_1_0_0
/-- The dimension record of the attended-query product. -/
abbrev dotUtil : DotDims S32x65x20 S32x20x100 S32x65x100 := dot_S32x65x20_S32x20x100_S32x65x100_2_1_1_2_0_0

/-! ## The operand indices of the score product -/

theorem score_lhs_0 (i : S32x65x20.Idx) (k : dotScore.contr.Idx) : (dotScore.lhsIdx i k 0).val = (i 0).val := by
  unfold DotDims.lhsIdx
  rw [dif_pos (show (0 : Fin S32x65x100.rank) ∈ dotScore.lhsBatch by decide)]
  rfl
theorem score_lhs_1 (i : S32x65x20.Idx) (k : dotScore.contr.Idx) : (dotScore.lhsIdx i k 1).val = (i 1).val := by
  unfold DotDims.lhsIdx
  rw [dif_neg (show ¬(1 : Fin S32x65x100.rank) ∈ dotScore.lhsBatch by decide), dif_pos (show (1 : Fin S32x65x100.rank) ∈ dotScore.lhsNonContracting by decide)]
  rfl
theorem score_lhs_2 (i : S32x65x20.Idx) (k : dotScore.contr.Idx) : (dotScore.lhsIdx i k 2).val = (k ⟨0, by decide⟩).val :=
  dotScore.lhsIdx_val_of_single rfl i k
theorem score_rhs_0 (i : S32x65x20.Idx) (k : dotScore.contr.Idx) : (dotScore.rhsIdx i k 0).val = (i 0).val := by
  unfold DotDims.rhsIdx
  rw [dif_pos (show (0 : Fin S32x20x100.rank) ∈ dotScore.rhsBatch by decide)]
  rfl
theorem score_rhs_1 (i : S32x65x20.Idx) (k : dotScore.contr.Idx) : (dotScore.rhsIdx i k 1).val = (i 2).val := by
  unfold DotDims.rhsIdx
  rw [dif_neg (show ¬(1 : Fin S32x20x100.rank) ∈ dotScore.rhsBatch by decide), dif_pos (show (1 : Fin S32x20x100.rank) ∈ dotScore.rhsNonContracting by decide)]
  rfl
theorem score_rhs_2 (i : S32x65x20.Idx) (k : dotScore.contr.Idx) : (dotScore.rhsIdx i k 2).val = (k ⟨0, by decide⟩).val :=
  dotScore.rhsIdx_val_of_single rfl i k

/-- The score product at `(y, t, q)`: the inner product of row `(y, t)` of the left operand with row `(y, q)` of the right. -/
theorem matmul_score_apply {φ₁ φ₂ : FTy} (L : FVec Ideal S32x65x100 φ₁) (R : FVec Ideal S32x20x100 φ₂) (y : Fin 32) (t : Fin 65) (q : Fin 20) :
    matmul dotScore none L R (constant S32x65x20 .f32 0x00000000#32) (ix3 y t q) = ∑ d : Fin 100, L (ix3 y t d) * R (ix3 y q d) := by
  show FloatOps.matmul dotScore none L R (constant S32x65x20 .f32 0x00000000#32) (ix3 y t q) = _
  rw [Ideal.matmul_constant_zero_apply, ← Equiv.sum_comp (contrEquiv1 dotScore 100 rfl rfl).symm]
  refine Finset.sum_congr rfl fun d _ => ?_
  have hk := contrEquiv1_symm_val dotScore 100 rfl rfl d
  have el : dotScore.lhsIdx (ix3 y t q) ((contrEquiv1 dotScore 100 rfl rfl).symm d) = ix3 y t d := funext fun a => Fin.ext (by
    match a with
    | ⟨0, _⟩ => exact score_lhs_0 _ _
    | ⟨1, _⟩ => exact score_lhs_1 _ _
    | ⟨2, _⟩ => exact (score_lhs_2 _ _).trans hk)
  have er : dotScore.rhsIdx (ix3 y t q) ((contrEquiv1 dotScore 100 rfl rfl).symm d) = ix3 y q d := funext fun a => Fin.ext (by
    match a with
    | ⟨0, _⟩ => exact score_rhs_0 _ _
    | ⟨1, _⟩ => exact score_rhs_1 _ _
    | ⟨2, _⟩ => exact (score_rhs_2 _ _).trans hk)
  rw [el, er]

/-! ## The operand indices of the attended-query product -/

theorem util_lhs_0 (i : S32x65x100.Idx) (k : dotUtil.contr.Idx) : (dotUtil.lhsIdx i k 0).val = (i 0).val := by
  unfold DotDims.lhsIdx
  rw [dif_pos (show (0 : Fin S32x65x20.rank) ∈ dotUtil.lhsBatch by decide)]
  rfl
theorem util_lhs_1 (i : S32x65x100.Idx) (k : dotUtil.contr.Idx) : (dotUtil.lhsIdx i k 1).val = (i 1).val := by
  unfold DotDims.lhsIdx
  rw [dif_neg (show ¬(1 : Fin S32x65x20.rank) ∈ dotUtil.lhsBatch by decide), dif_pos (show (1 : Fin S32x65x20.rank) ∈ dotUtil.lhsNonContracting by decide)]
  rfl
theorem util_lhs_2 (i : S32x65x100.Idx) (k : dotUtil.contr.Idx) : (dotUtil.lhsIdx i k 2).val = (k ⟨0, by decide⟩).val :=
  dotUtil.lhsIdx_val_of_single rfl i k
theorem util_rhs_0 (i : S32x65x100.Idx) (k : dotUtil.contr.Idx) : (dotUtil.rhsIdx i k 0).val = (i 0).val := by
  unfold DotDims.rhsIdx
  rw [dif_pos (show (0 : Fin S32x20x100.rank) ∈ dotUtil.rhsBatch by decide)]
  rfl
theorem util_rhs_1 (i : S32x65x100.Idx) (k : dotUtil.contr.Idx) : (dotUtil.rhsIdx i k 1).val = (k ⟨0, by decide⟩).val :=
  dotUtil.rhsIdx_val_of_single rfl i k
theorem util_rhs_2 (i : S32x65x100.Idx) (k : dotUtil.contr.Idx) : (dotUtil.rhsIdx i k 2).val = (i 2).val := by
  unfold DotDims.rhsIdx
  rw [dif_neg (show ¬(2 : Fin S32x20x100.rank) ∈ dotUtil.rhsBatch by decide), dif_pos (show (2 : Fin S32x20x100.rank) ∈ dotUtil.rhsNonContracting by decide)]
  rfl

/-- The attended-query product at `(y, t, d)`: row `(y, t)` of the left operand against column `d` of batch element `y` of the right. -/
theorem matmul_util_apply {φ₁ φ₂ : FTy} (L : FVec Ideal S32x65x20 φ₁) (R : FVec Ideal S32x20x100 φ₂) (y : Fin 32) (t : Fin 65) (d : Fin 100) :
    matmul dotUtil none L R (constant S32x65x100 .f32 0x00000000#32) (ix3 y t d) = ∑ q : Fin 20, L (ix3 y t q) * R (ix3 y q d) := by
  show FloatOps.matmul dotUtil none L R (constant S32x65x100 .f32 0x00000000#32) (ix3 y t d) = _
  rw [Ideal.matmul_constant_zero_apply, ← Equiv.sum_comp (contrEquiv1 dotUtil 20 rfl rfl).symm]
  refine Finset.sum_congr rfl fun q _ => ?_
  have hk := contrEquiv1_symm_val dotUtil 20 rfl rfl q
  have el : dotUtil.lhsIdx (ix3 y t d) ((contrEquiv1 dotUtil 20 rfl rfl).symm q) = ix3 y t q := funext fun a => Fin.ext (by
    match a with
    | ⟨0, _⟩ => exact util_lhs_0 _ _
    | ⟨1, _⟩ => exact util_lhs_1 _ _
    | ⟨2, _⟩ => exact (util_lhs_2 _ _).trans hk)
  have er : dotUtil.rhsIdx (ix3 y t d) ((contrEquiv1 dotUtil 20 rfl rfl).symm q) = ix3 y q d := funext fun a => Fin.ext (by
    match a with
    | ⟨0, _⟩ => exact util_rhs_0 _ _
    | ⟨1, _⟩ => exact (util_rhs_1 _ _).trans hk
    | ⟨2, _⟩ => exact util_rhs_2 _ _)
  rw [el, er]

end Cert.BiAttn.Ker

end
-- ==== Proof.KerStages.lean ====
/-
  The body's payloads, read at an index, are the bi-attention of the block's batch elements.

  The body works on a block of 32 batch elements at once.  Its intermediate vectors are named here as the body computes
  them — the two weighted row sums, the scores, the row maxima, the exponentials and their sums, the two softmaxes, the
  attended context — and each is read at an index written by its coordinates: batch element `y` of the block, context
  row `t`, query row `q`, feature `d`.  A lane sum is the sum over the reduced axis; a lane maximum is the fold of `max`
  over it from the word of −∞; a reduced axis put back as a unit axis and spread again reads the reduced value; the two
  matrix products are sums over the contracted axis; a change of float format changes nothing at these values.  Entry
  `y` of every vector depends on batch element `y` of the two blocks and on the weights only, which is why the block's
  result is the specification's result of those.
-/
import proofs.«153154_j51067161150211_1_alg».proof.Proof.Gen.KernelIdeal.Skeleton
import proofs.«153154_j51067161150211_1_alg».proof.Proof.Spec
import proofs.«153154_j51067161150211_1_alg».proof.Proof.Layout
import proofs.«153154_j51067161150211_1_alg».proof.Proof.KerMatmul
import Idealize.ShloMosaic.Lib.ValueLayout
import Idealize.ShloMosaic.PureOps.Ideal.Laws

noncomputable section

namespace Cert.BiAttn.Ker

open Cert.KernelIdeal Cert.KernelIdeal.Gen Idealize.ShloMosaic Idealize.ShloMosaic.ValueIdx Cert.BiAttn Cert.BiAttn.Layout

local macro "idx2" : tactic => `(tactic| (funext a; apply Fin.ext; match a with | ⟨0, _⟩ => rfl | ⟨1, _⟩ => rfl))
local macro "idx3" : tactic => `(tactic| (funext a; apply Fin.ext; match a with | ⟨0, _⟩ => rfl | ⟨1, _⟩ => rfl | ⟨2, _⟩ => rfl))

/-- The exponential of a vector, entry by entry. -/
theorem exp_apply {s : Shape} {φ : FTy} (v : FVec Ideal s φ) (i : s.Idx) : exp v i = Ideal.exp (v i) := rfl

variable (x0 : FVec Ideal S32x65x100 .f32) (x1 : FVec Ideal S32x20x100 .f32) (x2 : FVec Ideal S65x100 .f32)
  (x3 : FVec Ideal S20x100 .f32) (x4 : FVec Ideal S65x100 .f32)

/-! ## The score -/

/-- A block's rows weighted by a weight matrix repeated over the batch elements, summed over the features. -/
theorem weighted_sum {a : ℕ} (x : FVec Ideal ⟨3, ![32, a, 100]⟩ .f32) (w : FVec Ideal ⟨2, ![a, 100]⟩ .f32)
    (h1 : (⟨2, ![a, 100]⟩ : Shape).ShapeCasts ⟨3, ![1, a, 100]⟩) (h2 : (⟨3, ![1, a, 100]⟩ : Shape).Broadcasts ⟨3, ![32, a, 100]⟩)
    (h3 : (⟨3, ![32, a, 100]⟩ : Shape).Reduces [2] ⟨2, ![32, a]⟩) (hφ : FKind.Formats .f32)
    (hacc : (0x00000000#32 : BitVec 32) = FKind.add.neutral .f32 hφ) (y : Fin 32) (r : Fin a) :
    multiReduction (F := Ideal) .add [2] ⟨2, ![32, a]⟩ (mulf x (broadcastTo ⟨3, ![32, a, 100]⟩ (shapeCast ⟨3, ![1, a, 100]⟩ w h1) h2))
        0x00000000#32 h3 hφ hacc (ix2 y r)
      = ∑ d : Fin 100, rows x y r d * mat w r d := by
  refine (Ideal.multiReduction_add_single _ 0x00000000#32 h3 hφ hacc (ix2 y r)).trans ?_
  refine Finset.sum_congr rfl fun (d : Fin 100) _ => ?_
  have e : h3.lift (ix2 y r) d = ix3 y r d := by idx3
  rw [e, mulf_apply, broadcastTo_1ab_mab_apply, shapeCast_ab_1ab_apply]; rfl

/-- The context rows weighted by the first weights and summed, as the body takes them. -/
def ctxSum : FVec Ideal S32x65 .f32 :=
  multiReduction .add [2] S32x65 (mulf x0 (broadcastTo S32x65x100 (shapeCast S1x65x100 x2 shapeCasts_S65x100_S1x65x100) broadcasts_S1x65x100_S32x65x100)) 0x00000000#32 reduces_S32x65x100_S32x65 (.inl rfl) rfl

theorem ctxSum_apply (y : Fin 32) (t : Fin 65) : ctxSum x0 x2 (ix2 y t) = ∑ d : Fin 100, rows x0 y t d * mat x2 t d := by
  unfold ctxSum; exact weighted_sum x0 x2 _ _ _ _ _ y t

/-- The query rows weighted by the second weights and summed, as the body takes them. -/
def qrySum : FVec Ideal S32x20 .f32 :=
  multiReduction .add [2] S32x20 (mulf x1 (broadcastTo S32x20x100 (shapeCast S1x20x100 x3 shapeCasts_S20x100_S1x20x100) broadcasts_S1x20x100_S32x20x100)) 0x00000000#32 reduces_S32x20x100_S32x20 (.inl rfl) rfl

theorem qrySum_apply (y : Fin 32) (q : Fin 20) : qrySum x1 x3 (ix2 y q) = ∑ d : Fin 100, rows x1 y q d * mat x3 q d := by
  unfold qrySum; exact weighted_sum x1 x3 _ _ _ _ _ y q

/-- The scores as the body takes them: the two sums spread over the block and added to the score product. -/
def scoreV : FVec Ideal S32x65x20 .f32 :=
  addf (addf (broadcastTo S32x65x20 (shapeCast S32x65x1 (ctxSum x0 x2) shapeCasts_S32x65_S32x65x1) broadcasts_S32x65x1_S32x65x20)
      (broadcastTo S32x65x20 (transpose S32x1x20 [0, 2, 1] (shapeCast S32x20x1 (qrySum x1 x3) shapeCasts_S32x20_S32x20x1)
        transposes_S32x20x1_p0_2_1_S32x1x20) broadcasts_S32x1x20_S32x65x20))
    (matmul dotScore none
      (mulf (truncf .bf16 x0 bitsLt_bf16_f32)
        (broadcastTo S32x65x100 (shapeCast S1x65x100 (truncf .bf16 x4 bitsLt_bf16_f32) shapeCasts_S65x100_S1x65x100) broadcasts_S1x65x100_S32x65x100))
      (truncf .bf16 x1 bitsLt_bf16_f32) (constant S32x65x20 .f32 0x00000000#32))

/-- The generated score payload is that vector. -/
theorem pay4_eq : k0_pay4 (F := Ideal) x0 x1 x2 x3 x4 = scoreV x0 x1 x2 x3 x4 := rfl

/-- THE SCORES: the body's score vector holds the scores of each batch element of the block. -/
theorem scoreV_apply (y : Fin 32) (t : Fin 65) (q : Fin 20) : scoreV x0 x1 x2 x3 x4 (ix3 y t q) = scoreOf x0 x1 x2 x3 x4 y t q := by
  unfold scoreV
  rw [addf_apply, addf_apply, broadcastTo_ma1_mab_apply, shapeCast_ma_ma1_apply, ctxSum_apply, broadcastTo_m1b_mab_apply,
    transpose_ix3_021_apply, shapeCast_ma_ma1_apply, qrySum_apply, matmul_score_apply]
  unfold scoreOf score
  refine congrArg₂ (· + ·) rfl (Finset.sum_congr rfl fun (d : Fin 100) _ => ?_)
  rw [mulf_apply, truncf_apply, truncf_apply, broadcastTo_1ab_mab_apply, shapeCast_ab_1ab_apply, truncf_apply]; rfl

theorem rows_scoreV (y : Fin 32) : rows (scoreV x0 x1 x2 x3 x4) y = scoreOf x0 x1 x2 x3 x4 y :=
  funext fun t => funext fun q => scoreV_apply x0 x1 x2 x3 x4 y t q

/-! ## The first softmax and the attended query -/

/-- The row maxima as the body takes them. -/
def rowMaxV (S : FVec Ideal S32x65x20 .f32) : FVec Ideal S32x65 .f32 :=
  multiReduction .maximumf [2] S32x65 S 0xFF800000#32 reduces_S32x65x20_S32x65 (.inl rfl) rfl

theorem rowMaxV_apply (S : FVec Ideal S32x65x20 .f32) (y : Fin 32) (t : Fin 65) : rowMaxV S (ix2 y t) = rowMax (rows S y) t := by
  unfold rowMaxV
  refine (Ideal.multiReduction_maximumf_single S 0xFF800000#32 reduces_S32x65x20_S32x65 _ _ (ix2 y t)).trans ?_
  have hf : (S ∘ reduces_S32x65x20_S32x65.lift (ix2 y t)) = fun q : Fin 20 => rows S y t q := by
    funext q
    have e : reduces_S32x65x20_S32x65.lift (ix2 y t) q = ix3 y t q := by idx3
    rw [Function.comp_apply, e]; rfl
  rw [hf]; rfl

/-- The row maxima, each raised to at least −∞. -/
def rowTop (S : FVec Ideal S32x65x20 .f32) : FVec Ideal S32x65 .f32 :=
  maximumf (broadcast S32x65 (Scalar.ofBits .f32 0xFF800000#32)) (rowMaxV S)

theorem rowTop_apply (S : FVec Ideal S32x65x20 .f32) (y : Fin 32) (t : Fin 65) :
    rowTop S (ix2 y t) = max negInf (rowMax (rows S y) t) := by
  unfold rowTop
  rw [maximumf_apply, rowMaxV_apply]; rfl

/-- The exponentials of the scores less their row's maximum. -/
def expRows (S : FVec Ideal S32x65x20 .f32) : FVec Ideal S32x65x20 .f32 :=
  exp (subf S (broadcastTo S32x65x20 (shapeCast S32x65x1 (rowTop S) shapeCasts_S32x65_S32x65x1) broadcasts_S32x65x1_S32x65x20))

theorem expRows_apply (S : FVec Ideal S32x65x20 .f32) (y : Fin 32) (t : Fin 65) (q : Fin 20) :
    expRows S (ix3 y t q) = Ideal.exp (rows S y t q - max negInf (rowMax (rows S y) t)) := by
  unfold expRows
  rw [exp_apply, subf_apply, broadcastTo_ma1_mab_apply, shapeCast_ma_ma1_apply, rowTop_apply]; rfl

/-- Their sums over the query rows. -/
def expRowSum (S : FVec Ideal S32x65x20 .f32) : FVec Ideal S32x65 .f32 :=
  multiReduction .add [2] S32x65 (expRows S) 0x00000000#32 reduces_S32x65x20_S32x65 (.inl rfl) rfl

theorem expRowSum_apply (S : FVec Ideal S32x65x20 .f32) (y : Fin 32) (t : Fin 65) :
    expRowSum S (ix2 y t) = ∑ q : Fin 20, Ideal.exp (rows S y t q - max negInf (rowMax (rows S y) t)) := by
  unfold expRowSum
  refine (Ideal.multiReduction_add_single _ 0x00000000#32 reduces_S32x65x20_S32x65 _ _ (ix2 y t)).trans ?_
  refine Finset.sum_congr rfl fun (q : Fin 20) _ => ?_
  have e : reduces_S32x65x20_S32x65.lift (ix2 y t) q = ix3 y t q := by idx3
  rw [e]; exact expRows_apply S y t q

/-- The softmax over the query rows. -/
def softRows (S : FVec Ideal S32x65x20 .f32) : FVec Ideal S32x65x20 .f32 :=
  divf (expRows S) (broadcastTo S32x65x20 (shapeCast S32x65x1 (expRowSum S) shapeCasts_S32x65_S32x65x1) broadcasts_S32x65x1_S32x65x20)

theorem softRows_apply (S : FVec Ideal S32x65x20 .f32) (y : Fin 32) (t : Fin 65) (q : Fin 20) :
    softRows S (ix3 y t q) = att (rows S y) t q := by
  unfold softRows
  rw [divf_apply, broadcastTo_ma1_mab_apply, shapeCast_ma_ma1_apply, expRows_apply, expRowSum_apply]; rfl

/-- The attended query as the body takes it: the attention against the query rows. -/
def utilV : FVec Ideal S32x65x100 .f32 :=
  matmul dotUtil none (truncf .bf16 (softRows (scoreV x0 x1 x2 x3 x4)) bitsLt_bf16_f32) (truncf .bf16 x1 bitsLt_bf16_f32)
    (constant S32x65x100 .f32 0x00000000#32)

/-- The generated attended-query payload is that vector. -/
theorem pay5_eq : k0_pay5 (F := Ideal) x0 x1 x2 x3 x4 = utilV x0 x1 x2 x3 x4 := rfl

/-- THE ATTENDED QUERY of each batch element of the block. -/
theorem utilV_apply (y : Fin 32) (t : Fin 65) (d : Fin 100) :
    utilV x0 x1 x2 x3 x4 (ix3 y t d) = util (scoreOf x0 x1 x2 x3 x4 y) (rows x1 y) t d := by
  unfold utilV
  rw [matmul_util_apply]
  unfold util
  refine Finset.sum_congr rfl fun (q : Fin 20) _ => ?_
  rw [truncf_apply, truncf_apply, softRows_apply, rows_scoreV]; rfl

/-! ## The second softmax and the attended context -/

/-- The maximum of the row maxima over the context rows. -/
def colMaxV (S : FVec Ideal S32x65x20 .f32) : FVec Ideal S32 .f32 :=
  multiReduction .maximumf [1] S32 (rowMaxV S) 0xFF800000#32 reduces_S32x65_S32 (.inl rfl) rfl

theorem colMaxV_apply (S : FVec Ideal S32x65x20 .f32) (y : Fin 32) : colMaxV S (ix1 y) = colMax (rows S y) := by
  unfold colMaxV
  refine (Ideal.multiReduction_maximumf_single (rowMaxV S) 0xFF800000#32 reduces_S32x65_S32 _ _ (ix1 y)).trans ?_
  have hf : (rowMaxV S ∘ reduces_S32x65_S32.lift (ix1 y)) = fun t : Fin 65 => rowMax (rows S y) t := by
    funext t
    have e : reduces_S32x65_S32.lift (ix1 y) t = ix2 y t := by idx2
    rw [Function.comp_apply, e]; exact rowMaxV_apply S y t
  rw [hf]; rfl

/-- That maximum raised to at least −∞. -/
def colTop (S : FVec Ideal S32x65x20 .f32) : FVec Ideal S32 .f32 :=
  maximumf (broadcast S32 (Scalar.ofBits .f32 0xFF800000#32)) (colMaxV S)

theorem colTop_apply (S : FVec Ideal S32x65x20 .f32) (y : Fin 32) : colTop S (ix1 y) = max negInf (colMax (rows S y)) := by
  unfold colTop
  rw [maximumf_apply, colMaxV_apply]; rfl

/-- The exponentials of the row maxima less their maximum. -/
def expCols (S : FVec Ideal S32x65x20 .f32) : FVec Ideal S32x65 .f32 :=
  exp (subf (rowMaxV S) (broadcastTo S32x65 (shapeCast S32x1 (colTop S) shapeCasts_S32_S32x1) broadcasts_S32x1_S32x65))

theorem expCols_apply (S : FVec Ideal S32x65x20 .f32) (y : Fin 32) (t : Fin 65) :
    expCols S (ix2 y t) = Ideal.exp (rowMax (rows S y) t - max negInf (colMax (rows S y))) := by
  unfold expCols
  rw [exp_apply, subf_apply, broadcastTo_m1_ma_apply, shapeCast_m_m1_apply, colTop_apply, rowMaxV_apply]

/-- Their sum over the context rows. -/
def expColSum (S : FVec Ideal S32x65x20 .f32) : FVec Ideal S32 .f32 :=
  multiReduction .add [1] S32 (expCols S) 0x00000000#32 reduces_S32x65_S32 (.inl rfl) rfl

theorem expColSum_apply (S : FVec Ideal S32x65x20 .f32) (y : Fin 32) :
    expColSum S (ix1 y) = ∑ t : Fin 65, Ideal.exp (rowMax (rows S y) t - max negInf (colMax (rows S y))) := by
  unfold expColSum
  refine (Ideal.multiReduction_add_single _ 0x00000000#32 reduces_S32x65_S32 _ _ (ix1 y)).trans ?_
  refine Finset.sum_congr rfl fun (t : Fin 65) _ => ?_
  have e : reduces_S32x65_S32.lift (ix1 y) t = ix2 y t := by idx2
  rw [e]; exact expCols_apply S y t

/-- The softmax over the context rows. -/
def softCols (S : FVec Ideal S32x65x20 .f32) : FVec Ideal S32x65 .f32 :=
  divf (expCols S) (broadcastTo S32x65 (shapeCast S32x1 (expColSum S) shapeCasts_S32_S32x1) broadcasts_S32x1_S32x65)

theorem softCols_apply (S : FVec Ideal S32x65x20 .f32) (y : Fin 32) (t : Fin 65) : softCols S (ix2 y t) = wgt (rows S y) t := by
  unfold softCols
  rw [divf_apply, broadcastTo_m1_ma_apply, shapeCast_m_m1_apply, expCols_apply, expColSum_apply]; rfl

/-- The attended context of each batch element of the block. -/
def htilV (v0 : FVec Ideal S32x65x100 .f32) (S : FVec Ideal S32x65x20 .f32) : FVec Ideal S32x100 .f32 :=
  multiReduction .add [1] S32x100 (mulf (broadcastTo S32x65x100 (shapeCast S32x65x1 (softCols S) shapeCasts_S32x65_S32x65x1) broadcasts_S32x65x1_S32x65x100) v0) 0x00000000#32 reduces_S32x65x100_S32x100 (.inl rfl) rfl

theorem htilV_apply (v0 : FVec Ideal S32x65x100 .f32) (S : FVec Ideal S32x65x20 .f32) (y : Fin 32) (d : Fin 100) :
    htilV v0 S (ix2 y d) = htil (rows S y) (rows v0 y) d := by
  unfold htilV
  refine (Ideal.multiReduction_add_single _ 0x00000000#32 reduces_S32x65x100_S32x100 _ _ (ix2 y d)).trans ?_
  unfold htil
  refine Finset.sum_congr rfl fun (t : Fin 65) _ => ?_
  have e : reduces_S32x65x100_S32x100.lift (ix2 y d) t = ix3 y t d := by idx3
  rw [e, mulf_apply, broadcastTo_ma1_mab_apply, shapeCast_ma_ma1_apply, softCols_apply]; rfl

/-- The fourth slab as the body takes it: the context times the attended context spread over the context rows. -/
def ctxHtilV (v0 : FVec Ideal S32x65x100 .f32) (S : FVec Ideal S32x65x20 .f32) : FVec Ideal S32x65x100 .f32 :=
  mulf v0 (broadcastTo S32x65x100 (shapeCast S32x1x100 (htilV v0 S) shapeCasts_S32x100_S32x1x100) broadcasts_S32x1x100_S32x65x100)

/-- The generated payload of the fourth store is that vector. -/
theorem pay2_eq (v0 : FVec Ideal S32x65x100 .f32) (S : FVec Ideal S32x65x20 .f32) : k0_pay2 (F := Ideal) v0 S = ctxHtilV v0 S := rfl

theorem ctxHtilV_apply (v0 : FVec Ideal S32x65x100 .f32) (S : FVec Ideal S32x65x20 .f32) (y : Fin 32) (t : Fin 65) (d : Fin 100) :
    ctxHtilV v0 S (ix3 y t d) = rows v0 y t d * htil (rows S y) (rows v0 y) d := by
  unfold ctxHtilV
  rw [mulf_apply, broadcastTo_m1b_mab_apply, shapeCast_mb_m1b_apply, htilV_apply]; rfl

/-- The generated payload of the third store: the context times the attended query, entry by entry. -/
theorem pay1_apply (v0 : FVec Ideal S32x65x100 .f32) (v39 : FVec Ideal S32x65x100 .f32) (i : S32x65x100.Idx) :
    k0_pay1 (F := Ideal) v0 v39 i = v0 i * v39 i := rfl

end Cert.BiAttn.Ker

end
-- ==== Proof.KerBlocks.lean ====
/-
  From the body's four stores to the result array.

  The body stores four slabs of 100 columns side by side into its output block of 400 columns: the context block, the
  attended query, and the context's products with the attended query and with the attended context.  Each store's
  payload is the restriction to its slab of ONE function of the block index — the specification's result for the 32
  batch elements of the block — so the block after the body is that function.  Grid point `t` works on batch elements
  `32·t … 32·t + 31` of the two arrays and on the whole weight matrices, and every batch element of the result depends on
  its own data only; so what point `t` writes back is the stretch `32·t … 32·t + 31` of the specification's result for
  all 8192 batch elements.  The 256 blocks cover the array (batch element `b` lies in block `b / 32`), hence the array
  after the run is that result.
-/
import proofs.«153154_j51067161150211_1_alg».proof.Proof.Gen.KernelIdeal.Value
import proofs.«153154_j51067161150211_1_alg».proof.Proof.KerStages
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.BiAttn Cert.BiAttn.Ker
open Idealize.ShloMosaic.Pipeline (Dat)

/-! ## The block after the body -/

theorem zero3 : (![0, 0, 0] : Fin 3 → Nat) = fun _ => 0 := funext fun a => by fin_cases a <;> rfl
theorem zero2 : (![0, 0] : Fin 2 → Nat) = fun _ => 0 := funext fun a => by fin_cases a <;> rfl

/-- Column `d` of the slab stored at column offset `o` is column `o + d` of the block. -/
theorem slab_emb (o : Nat) (inb : ∀ a, (![0, 0, o] : Fin 3 → Nat) a + S32x65x100.size a ≤ S32x65x400.size a)
    (y : Fin 32) (t : Fin 65) (d : Fin 100) (hs : o + d.val < 400) :
    (Rect.unit (s := S32x65x400) ![0, 0, o] S32x65x100.size inb).emb (ix3 y t d) = ix3 y t ⟨o + d.val, hs⟩ := by
  funext a; apply Fin.ext
  match a with
  | ⟨0, _⟩ => show 0 + 1 * y.val = y.val; omega
  | ⟨1, _⟩ => show 0 + 1 * t.val = t.val; omega
  | ⟨2, _⟩ => show o + 1 * d.val = o + d.val; omega

/-- The result at column `o + d`, where `o` is `100·s`: entry `d` of slab `s`. -/
theorem whole_off {B : Nat} (X0 : (⟨3, ![B, 65, 100]⟩ : Shape).Idx → EReal) (X1 : (⟨3, ![B, 20, 100]⟩ : Shape).Idx → EReal)
    (W1 : (⟨2, ![65, 100]⟩ : Shape).Idx → EReal) (W2 : (⟨2, ![20, 100]⟩ : Shape).Idx → EReal) (W3 : (⟨2, ![65, 100]⟩ : Shape).Idx → EReal)
    (b : Fin B) (t : Fin 65) (o s : Nat) (ho : o = 100 * s) (d : Fin 100) (hs : o + d.val < 400) :
    whole X0 X1 W1 W2 W3 (ix3 b t ⟨o + d.val, hs⟩)
      = slab s (rows X0 b t d) (util (scoreOf X0 X1 W1 W2 W3 b) (rows X1 b) t d)
          (rows X0 b t d * util (scoreOf X0 X1 W1 W2 W3 b) (rows X1 b) t d)
          (rows X0 b t d * htil (scoreOf X0 X1 W1 W2 W3 b) (rows X0 b) d) := by
  subst ho
  exact whole_slab X0 X1 W1 W2 W3 b t s d hs

/-- THE BLOCK AFTER THE BODY is the specification's result for the block's 32 batch elements: each of the four stores
    writes the slab of it that its rectangle names. -/
theorem out_eq (x0 : FVec Ideal S32x65x100 .f32) (x1 : FVec Ideal S32x20x100 .f32) (x2 : FVec Ideal S65x100 .f32)
    (x3 : FVec Ideal S20x100 .f32) (x4 : FVec Ideal S65x100 .f32) :
    out0_5 (F := Ideal) x0 x1 x2 x3 x4 = whole x0 x1 x2 x3 x4 := by
  funext i
  unfold out0_5
  simp only [View.ld_unit_zero (S := S32x65x100) zero3, View.ld_unit_zero (S := S32x20x100) zero3,
    View.ld_unit_zero (S := S65x100) zero2, View.ld_unit_zero (S := S20x100) zero2]
  refine View.canon_apply_of_pieces (Val := Elt Ideal) (whole x0 x1 x2 x3 x4) _ ?_ i (cover0_5 _ _ _ _ i)
  intro p hp
  simp only [List.mem_cons, List.not_mem_nil, or_false] at hp
  rcases hp with rfl | rfl | rfl | rfl
  all_goals
    intro x
    obtain ⟨y, t, d, rfl⟩ : ∃ (y : Fin 32) (t : Fin 65) (d : Fin 100), x = ix3 y t d := ⟨x 0, x 1, x 2, eq_ix3 x⟩
    have hd := d.isLt
  · show k0_pay2 (F := Ideal) x0 (k0_pay4 (F := Ideal) x0 x1 x2 x3 x4) (ix3 y t d) = whole x0 x1 x2 x3 x4 (r0_7.emb (ix3 y t d))
    rw [slab_emb 300 _ y t d (by omega), whole_off x0 x1 x2 x3 x4 y t 300 3 rfl d, pay2_eq, pay4_eq, ctxHtilV_apply, rows_scoreV]; rfl
  · show k0_pay1 (F := Ideal) x0 (k0_pay5 (F := Ideal) x0 x1 x2 x3 x4) (ix3 y t d) = whole x0 x1 x2 x3 x4 (r0_6.emb (ix3 y t d))
    rw [slab_emb 200 _ y t d (by omega), whole_off x0 x1 x2 x3 x4 y t 200 2 rfl d, pay1_apply, pay5_eq, utilV_apply]; rfl
  · show k0_pay5 (F := Ideal) x0 x1 x2 x3 x4 (ix3 y t d) = whole x0 x1 x2 x3 x4 (r0_5.emb (ix3 y t d))
    rw [slab_emb 100 _ y t d (by omega), whole_off x0 x1 x2 x3 x4 y t 100 1 rfl d, pay5_eq, utilV_apply]; rfl
  · show x0 (ix3 y t d) = whole x0 x1 x2 x3 x4 (r0_4.emb (ix3 y t d))
    rw [slab_emb 0 _ y t d (by omega), whole_off x0 x1 x2 x3 x4 y t 0 0 rfl d]; rfl

/-! ## What a grid point writes back -/

variable (m : (ℓ : Loc nD τ sig) → Buf (Elt Ideal) ℓ) (ρ : Dev nD → PrngReg)

/-- The printed index maps, decided over the 256 grid points: the two batched inputs and the output move with the point
    along the batch axis and nowhere else; the three weight matrices do not move. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

theorem point_lt (t : Fin cfg0.N) : t.val < 256 := lt_of_lt_of_eq t.isLt N_0

/-- The context block at point `t` is batch elements `32·t …` of the context array. -/
theorem ctx_block (c : Dev nD) (t : Fin cfg0.N) (y : Fin 32) (hy : t.val * 32 + y.val < 8192) (r : Fin 65) (d : Fin 100) :
    iblk m c 0 t (ix3 y r d) = V m c main_arg0 (ix3 ⟨t.val * 32 + y.val, hy⟩ r d) := by
  obtain ⟨⟨e0, e1, e2⟩, -⟩ := idx_facts t
  show V m c main_arg0 (((cfg0.win 0).blk t).view.emb (ix3 y r d)) = V m c main_arg0 _
  refine congrArg (V m c main_arg0) (funext fun a => Fin.ext ?_)
  match a with
  | ⟨0, _⟩ => show win0_0.index t (0 : Fin 3) * 32 + 1 * y.val = t.val * 32 + y.val; rw [e0]; omega
  | ⟨1, _⟩ => show win0_0.index t (1 : Fin 3) * 65 + 1 * r.val = r.val; rw [e1]; omega
  | ⟨2, _⟩ => show win0_0.index t (2 : Fin 3) * 100 + 1 * d.val = d.val; rw [e2]; omega

/-- The query block at point `t` is batch elements `32·t …` of the query array. -/
theorem qry_block (c : Dev nD) (t : Fin cfg0.N) (y : Fin 32) (hy : t.val * 32 + y.val < 8192) (r : Fin 20) (d : Fin 100) :
    iblk m c 1 t (ix3 y r d) = V m c main_arg1 (ix3 ⟨t.val * 32 + y.val, hy⟩ r d) := by
  obtain ⟨-, ⟨e0, e1, e2⟩, -⟩ := idx_facts t
  show V m c main_arg1 (((cfg0.win 1).blk t).view.emb (ix3 y r d)) = V m c main_arg1 _
  refine congrArg (V m c main_arg1) (funext fun a => Fin.ext ?_)
  match a with
  | ⟨0, _⟩ => show win0_1.index t (0 : Fin 3) * 32 + 1 * y.val = t.val * 32 + y.val; rw [e0]; omega
  | ⟨1, _⟩ => show win0_1.index t (1 : Fin 3) * 20 + 1 * r.val = r.val; rw [e1]; omega
  | ⟨2, _⟩ => show win0_1.index t (2 : Fin 3) * 100 + 1 * d.val = d.val; rw [e2]; omega

/-- Each weight block is the whole weight matrix, at every point. -/
theorem w1_block (c : Dev nD) (t : Fin cfg0.N) : iblk m c 2 t = V m c main_arg2 := by
  obtain ⟨-, -, ⟨e0, e1⟩, -⟩ := idx_facts t
  funext i
  show V m c main_arg2 (((cfg0.win 2).blk t).view.emb i) = V m c main_arg2 i
  refine congrArg (V m c main_arg2) (funext fun a => Fin.ext ?_)
  match a with
  | ⟨0, _⟩ => show win0_2.index t (0 : Fin 2) * 65 + 1 * (i 0).val = (i 0).val; rw [e0]; omega
  | ⟨1, _⟩ => show win0_2.index t (1 : Fin 2) * 100 + 1 * (i 1).val = (i 1).val; rw [e1]; omega

theorem w2_block (c : Dev nD) (t : Fin cfg0.N) : iblk m c 3 t = V m c main_arg3 := by
  obtain ⟨-, -, -, ⟨e0, e1⟩, -⟩ := idx_facts t
  funext i
  show V m c main_arg3 (((cfg0.win 3).blk t).view.emb i) = V m c main_arg3 i
  refine congrArg (V m c main_arg3) (funext fun a => Fin.ext ?_)
  match a with
  | ⟨0, _⟩ => show win0_3.index t (0 : Fin 2) * 20 + 1 * (i 0).val = (i 0).val; rw [e0]; omega
  | ⟨1, _⟩ => show win0_3.index t (1 : Fin 2) * 100 + 1 * (i 1).val = (i 1).val; rw [e1]; omega

theorem w3_block (c : Dev nD) (t : Fin cfg0.N) : iblk m c 4 t = V m c main_arg4 := by
  obtain ⟨-, -, -, -, ⟨e0, e1⟩, -⟩ := idx_facts t
  funext i
  show V m c main_arg4 (((cfg0.win 4).blk t).view.emb i) = V m c main_arg4 i
  refine congrArg (V m c main_arg4) (funext fun a => Fin.ext ?_)
  match a with
  | ⟨0, _⟩ => show win0_4.index t (0 : Fin 2) * 65 + 1 * (i 0).val = (i 0).val; rw [e0]; omega
  | ⟨1, _⟩ => show win0_4.index t (1 : Fin 2) * 100 + 1 * (i 1).val = (i 1).val; rw [e1]; omega

/-- WHAT POINT `t` WRITES BACK is block `t` of the specification's result of the argument arrays as the region finds them. -/
theorem flushed_eq (c : Dev nD) (t : Fin cfg0.N) :
    (dats m 0 c).flushed 5 t = ((cfg0.win 5).blk t).view.read (Elt Ideal) (whole (V m c main_arg0) (V m c main_arg1) (V m c main_arg2) (V m c main_arg3) (V m c main_arg4)) := by
  rw [Value.flushed5]
  have ht := point_lt t
  obtain ⟨-, -, -, -, -, ⟨e0, e1, e2⟩⟩ := idx_facts t
  funext j
  obtain ⟨y, r, k, rfl⟩ : ∃ (y : Fin 32) (r : Fin 65) (k : Fin 400), j = ix3 y r k := ⟨j 0, j 1, j 2, eq_ix3 j⟩
  have hy := y.isLt
  show out0_5 (F := Ideal) (iblk m c 0 t) (iblk m c 1 t) (iblk m c 2 t) (iblk m c 3 t) (iblk m c 4 t) (ix3 y r k)
      = whole (V m c main_arg0) (V m c main_arg1) (V m c main_arg2) (V m c main_arg3) (V m c main_arg4) (((cfg0.win 5).blk t).view.emb (ix3 y r k))
  have hemb : ((cfg0.win 5).blk t).view.emb (ix3 y r k) = ix3 ⟨t.val * 32 + y.val, by omega⟩ r k := by
    funext a; apply Fin.ext
    match a with
    | ⟨0, _⟩ => show win0_5.index t (0 : Fin 3) * 32 + 1 * y.val = t.val * 32 + y.val; rw [e0]; omega
    | ⟨1, _⟩ => show win0_5.index t (1 : Fin 3) * 65 + 1 * r.val = r.val; rw [e1]; omega
    | ⟨2, _⟩ => show win0_5.index t (2 : Fin 3) * 400 + 1 * k.val = k.val; rw [e2]; omega
  rw [hemb, out_eq (iblk m c 0 t) (iblk m c 1 t) (iblk m c 2 t) (iblk m c 3 t) (iblk m c 4 t), w1_block m c t, w2_block m c t, w3_block m c t]
  exact whole_block (V m c main_arg0) (V m c main_arg1) (iblk m c 0 t) (iblk m c 1 t) (V m c main_arg2) (V m c main_arg3) (V m c main_arg4)
    y ⟨t.val * 32 + y.val, by omega⟩ (fun r' d => ctx_block m c t y (by omega) r' d) (fun r' d => qry_block m c t y (by omega) r' d) r k

/-! ## The blocks cover the array -/

/-- An index of the array is in point `t`'s block iff each coordinate is in the block's range on its axis. -/
theorem mem_blk (t : Fin cfg0.N) (i : S8192x65x400.Idx) :
    i ∈ ((cfg0.win 5).blk t).view.set ↔ ∀ a : Fin 3, win0_5.index t a * S32x65x400.size a ≤ (i a).val ∧ (i a).val < win0_5.index t a * S32x65x400.size a + S32x65x400.size a := by
  show i ∈ ((View.whole main_v0).slice (win0_5.rect t)).set ↔ _
  rw [View.set_slice_whole, Rect.mem_set_unit]
  exact Iff.rfl

/-- Batch element `b` of the result lies in block `b / 32`. -/
theorem cover (i : S8192x65x400.Idx) : ∃ t : Fin cfg0.N, (cfg0.win 5).flush t = true ∧ i ∈ ((cfg0.win 5).blk t).view.set := by
  have hi0 : (i 0).val < 8192 := (i 0).isLt
  have hi1 : (i 1).val < 65 := (i 1).isLt
  have hi2 : (i 2).val < 400 := (i 2).isLt
  have hN : (i 0).val / 32 < cfg0.N := lt_of_lt_of_eq (by omega : (i 0).val / 32 < 256) N_0.symm
  obtain ⟨-, -, -, -, -, ⟨e0, e1, e2⟩⟩ := idx_facts ⟨(i 0).val / 32, hN⟩
  refine ⟨⟨(i 0).val / 32, hN⟩, flush0_5 _, ?_⟩
  rw [mem_blk]
  intro a
  match a with
  | ⟨0, _⟩ =>
    show win0_5.index ⟨(i 0).val / 32, hN⟩ (0 : Fin 3) * 32 ≤ (i 0).val ∧ (i 0).val < win0_5.index ⟨(i 0).val / 32, hN⟩ (0 : Fin 3) * 32 + 32
    rw [e0]; show (i 0).val / 32 * 32 ≤ (i 0).val ∧ (i 0).val < (i 0).val / 32 * 32 + 32; omega
  | ⟨1, _⟩ =>
    show win0_5.index ⟨(i 0).val / 32, hN⟩ (1 : Fin 3) * 65 ≤ (i 1).val ∧ (i 1).val < win0_5.index ⟨(i 0).val / 32, hN⟩ (1 : Fin 3) * 65 + 65
    rw [e1]; omega
  | ⟨2, _⟩ =>
    show win0_5.index ⟨(i 0).val / 32, hN⟩ (2 : Fin 3) * 400 ≤ (i 2).val ∧ (i 2).val < win0_5.index ⟨(i 0).val / 32, hN⟩ (2 : Fin 3) * 400 + 400
    rw [e2]; omega

/-! ## The array after the run -/

/-- THE RESULT ARRAY after the run is the specification's result of the argument arrays. -/
theorem final (c : Dev nD) : (dats m 0 c).arrAt 5 cfg0.N = whole (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (whole (V m c main_arg0) (V m c main_arg1) (V m c main_arg2) (V m c main_arg3) (V m c main_arg4)) (fun t _ => flushed_eq m c t) cover

/-- The run of the idealized kernel: the result array ends at the specification's result of the argument arrays, and the
    argument arrays end unchanged. -/
theorem run : θ_run defs (onTc (τ := τ) (main (F := Ideal))) ⟨m, fun _ => 0, ρ⟩ fun r => ∀ c : Dev nD,
      r.2.mem ((c : Thread nD τ).loc main_v0) = whole (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.lean ====
/-
  Bi-attention of 8192 batch elements: a gridded kernel against its array reference, equal over the extended reals.

  For each batch element, with context block `h` (65 × 100), query block `u` (20 × 100) and weights `w1, w3` (65 × 100),
  `w2` (20 × 100), both programs compute

    score t q = (Σ_d h t d · w1 t d + Σ_d u q d · w2 q d) + Σ_d (h t d · w3 t d) · u q d,
    att       = the softmax of each row of the scores over the 20 query rows,
    util t d  = Σ_q att t q · u q d,
    wgt       = the softmax over the 65 context rows of the rows' maxima,
    htil d    = Σ_t wgt t · h t d,

  and lay out, for each context row `t`, the four slabs `h t ·`, `util t ·`, `h t · ∘ util t ·`, `h t · ∘ htil ·` side by side
  (Proof/Spec.lean: `Cert.BiAttn.whole`).  The kernel does it 32 batch elements at a time, with lane reductions, two
  matrix products into zero accumulators and four stores into the slabs of its output block (Proof/KerStages.lean,
  Proof/KerBlocks.lean); the reference does it for all batch elements at once with host reductions, two general dot
  products and a concatenation (Proof/RefStages.lean, Proof/RefWhole.lean).  At the ideal values a change of float format
  is the identity, a lane sum and a host sum are the same finite sum, a lane maximum and a host maximum the same fold of
  `max` from −∞, a matrix product into zero and a dot product the same sum of products, and the exponential and the
  quotient are one function on each side; the two programs apply them in the same association, so their results are the
  same function of the arguments index by index, and the precondition (finite inputs) is never opened.

  The three frames are the generated frame certificates of the two kernels and the reference's run with its result
  dropped; the idealization rewrote no operation, so `preserves` is `True`.
-/
import proofs.«153154_j51067161150211_1_alg».proof.Defs
import proofs.«153154_j51067161150211_1_alg».proof.Proof.Gen.Kernel
import proofs.«153154_j51067161150211_1_alg».proof.Proof.Gen.Kernel.Skeleton
import proofs.«153154_j51067161150211_1_alg».proof.Proof.Gen.Kernel.Launch
import proofs.«153154_j51067161150211_1_alg».proof.Proof.Gen.Kernel.Points
import proofs.«153154_j51067161150211_1_alg».proof.Proof.Gen.Kernel.Frame
import proofs.«153154_j51067161150211_1_alg».proof.Proof.Gen.KernelIdeal
import proofs.«153154_j51067161150211_1_alg».proof.Proof.Gen.KernelIdeal.Skeleton
import proofs.«153154_j51067161150211_1_alg».proof.Proof.Gen.KernelIdeal.Launch
import proofs.«153154_j51067161150211_1_alg».proof.Proof.Gen.KernelIdeal.Points
import proofs.«153154_j51067161150211_1_alg».proof.Proof.Gen.KernelIdeal.Frame
import proofs.«153154_j51067161150211_1_alg».proof.Proof.Gen.ReferenceIdeal
import proofs.«153154_j51067161150211_1_alg».proof.Proof.Gen.Pre_finite_inputs
import proofs.«153154_j51067161150211_1_alg».proof.Proof.Gen.KernelIdeal.Value
import proofs.«153154_j51067161150211_1_alg».proof.Proof.RefRead
import proofs.«153154_j51067161150211_1_alg».proof.Proof.RefWhole
import proofs.«153154_j51067161150211_1_alg».proof.Proof.KerBlocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the five arguments both programs end with the result array at the bi-attention of
    the arguments: the kernel block by block (`Cert.KernelIdeal.Whole.run`), the reference stage by stage
    (`Cert.BiAttn.Ref.whole_eq` of its run's term). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v50_eq, Cert.BiAttn.Ref.whole_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
